-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x50x64 : Shape := ⟨4, ![4096, 2, 50, 64]⟩
abbrev S1024x50 : Shape := ⟨2, ![1024, 50]⟩
abbrev S_ : Shape := ⟨0, ![]⟩

class Facts : Prop where
  bcast_S_S4096x2x50x64 : S_.BroadcastsInDim S4096x2x50x64 (![] : Fin 0 → Fin S4096x2x50x64.rank)
  reducesTo_S4096x2x50x64_S_d0_1_2_3 : S4096x2x50x64.ReducesTo [0, 1, 2, 3] S_
  h_S_ : 0 < S_.numel
  bcast_S_S1024x50 : S_.BroadcastsInDim S1024x50 (![] : Fin 0 → Fin S1024x50.rank)
  reducesTo_S1024x50_S_d0_1 : S1024x50.ReducesTo [0, 1] S_

variable [Facts]

def fn {F : FTy → Type} [FloatOps F] (main_arg0 : FVec F S4096x2x50x64 .f32) (main_arg1 : FVec F S1024x50 .f32) : IVec S_ 1 :=
  let main_v0 : FVec F S4096x2x50x64 .f32 := Host.absf main_arg0
  let main_cst : FVec F S_ .f32 := constant S_ .f32 0x7F800000#32
  let main_v1 : FVec F S4096x2x50x64 .f32 := broadcastInDim S4096x2x50x64 ![] bcast_S_S4096x2x50x64 main_cst
  let main_v2 : IVec S4096x2x50x64 1 := cmpf .olt main_v0 main_v1
  let main_c : IVec S_ 1 := constantI S_ 1 1#1
  let main_v3 : IVec S_ 1 := (fun x v => Host.reduce IntOp.andi x v reducesTo_S4096x2x50x64_S_d0_1_2_3 h_S_) main_v2 main_c
  let main_v4 : FVec F S1024x50 .f32 := Host.absf main_arg1
  let main_cst_0 : FVec F S_ .f32 := constant S_ .f32 0x7F800000#32
  let main_v5 : FVec F S1024x50 .f32 := broadcastInDim S1024x50 ![] bcast_S_S1024x50 main_cst_0
  let main_v6 : IVec S1024x50 1 := cmpf .olt main_v4 main_v5
  let main_c_1 : IVec S_ 1 := constantI S_ 1 1#1
  let main_v7 : IVec S_ 1 := (fun x v => Host.reduce IntOp.andi x v reducesTo_S1024x50_S_d0_1 h_S_) main_v6 main_c_1
  let main_v8 : IVec S_ 1 := andi main_v3 main_v7
  main_v8
-- ==== Kernel.lean ====
abbrev S4096x2x50x64 : Shape := ⟨4, ![4096, 2, 50, 64]⟩
abbrev S1024x50 : Shape := ⟨2, ![1024, 50]⟩
abbrev S4096x1x50x64 : Shape := ⟨4, ![4096, 1, 50, 64]⟩
abbrev S4096x50x64 : Shape := ⟨3, ![4096, 50, 64]⟩
abbrev S102400x128 : Shape := ⟨2, ![102400, 128]⟩
abbrev S1024x25 : Shape := ⟨2, ![1024, 25]⟩
abbrev S6400x128 : Shape := ⟨2, ![6400, 128]⟩
abbrev S256x25 : Shape := ⟨2, ![256, 25]⟩
abbrev S128x128 : Shape := ⟨2, ![128, 128]⟩
abbrev S256x25x128 : Shape := ⟨3, ![256, 25, 128]⟩
abbrev S256x25x1 : Shape := ⟨3, ![256, 25, 1]⟩
abbrev S1024x25x1 : Shape := ⟨3, ![1024, 25, 1]⟩
abbrev S1024x25x2 : Shape := ⟨3, ![1024, 25, 2]⟩

abbrev nBuf : Space → Nat
  | .hbm => 12
  | .vmem => 7
  | .smem => 0
  | _ => 0

abbrev bufTy : (tb : Table) → Fin (tcTables nBuf tb) → BufTy
  | .hbm, ⟨0, _⟩ => ⟨S4096x2x50x64, .f32⟩
  | .hbm, ⟨1, _⟩ => ⟨S1024x50, .f32⟩
  | .hbm, ⟨2, _⟩ => ⟨S4096x1x50x64, .f32⟩
  | .hbm, ⟨3, _⟩ => ⟨S4096x50x64, .f32⟩
  | .hbm, ⟨4, _⟩ => ⟨S102400x128, .f32⟩
  | .hbm, ⟨5, _⟩ => ⟨S1024x25, .f32⟩
  | .hbm, ⟨6, _⟩ => ⟨S1024x25, .f32⟩
  | .hbm, ⟨7, _⟩ => ⟨S1024x25x1, .f32⟩
  | .hbm, ⟨8, _⟩ => ⟨S1024x25x1, .f32⟩
  | .hbm, ⟨9, _⟩ => ⟨S1024x25x2, .f32⟩
  | .hbm, ⟨10, _⟩ => ⟨S1024x50, .f32⟩
  | .hbm, ⟨11, _⟩ => ⟨S1024x50, .f32⟩
  | .local _ .vmem, ⟨0, _⟩ => ⟨S6400x128, .f32⟩
  | .local _ .vmem, ⟨1, _⟩ => ⟨S6400x128, .f32⟩
  | .local _ .vmem, ⟨2, _⟩ => ⟨S256x25, .f32⟩
  | .local _ .vmem, ⟨3, _⟩ => ⟨S256x25, .f32⟩
  | .local _ .vmem, ⟨4, _⟩ => ⟨S256x25, .f32⟩
  | .local _ .vmem, ⟨5, _⟩ => ⟨S256x25, .f32⟩
  | .local _ .vmem, ⟨6, _⟩ => ⟨S6400x128, .f32⟩
  | _, _ => ⟨S4096x2x50x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v45 : BitVec 1 := Scalar.cmpi .eq arg1 c3_i32
  let v46 : BitVec 32 := Scalar.extui v45
  let c0_i32_11 : BitVec 32 := 0#32
  let v47 : BitVec 1 := Scalar.cmpi .ne v46 c0_i32_11
  v47

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let v1 : BitVec 32 := Scalar.addi arg0 v0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x25 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x25 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S4096x2x50x64_S4096x1x50x64_0_0_0_0 : S4096x2x50x64.Slices ![0, 0, 0, 0] S4096x1x50x64
  shapeCasts_S4096x1x50x64_S4096x50x64 : S4096x1x50x64.ShapeCasts S4096x50x64
  shapeCasts_S4096x50x64_S102400x128 : S4096x50x64.ShapeCasts S102400x128
  iota_S128x128_d0_w32 : S128x128.Iotas .tc 32 [0]
  iota_S128x128_d1_w32 : S128x128.Iotas .tc 32 [1]
  natLt_1_32 : 1 < 32
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  shapeCasts_S6400x128_S256x25x128 : S6400x128.ShapeCasts S256x25x128
  slices_S256x25x128_o0_0_0_S256x25x1 : S256x25x128.Slices ![0, 0, 0] S256x25x1
  shapeCasts_S256x25x1_S256x25 : S256x25x1.ShapeCasts S256x25
  inb_S256x25_S256x25_0_0 : ∀ a, (![0, 0] : Fin 2 → Nat) a + S256x25.size a ≤ S256x25.size a
  h_S256x25 : 0 < S256x25.numel
  slices_S256x25x128_o0_0_64_S256x25x1 : S256x25x128.Slices ![0, 0, 64] S256x25x1
  bcast_S1024x25_S1024x25x1_0_1 : S1024x25.BroadcastsInDim S1024x25x1 (![0, 1] : Fin 2 → Fin S1024x25x1.rank)
  concatenates_S1024x25x1_S1024x25x1_S1024x25x2_d2 : Shape.Concatenates [S1024x25x1, S1024x25x1] S1024x25x2 2
  shapeCasts_S1024x25x2_S1024x50 : S1024x25x2.ShapeCasts S1024x50
  dot_S6400x128_S128x128_S6400x128_1_0_0_1_n_n_wf : DotDims.WF S6400x128 S128x128 S6400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S102400x128.size a
  hwx0_0 : ∀ i : grid0.Coords, EltTy.bits .f32 = 32 ∨ (Rect.block (s := S102400x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x25.size a ≤ S1024x25.size a
  hwx0_1 : ∀ i : grid0.Coords, EltTy.bits .f32 = 32 ∨ (Rect.block (s := S1024x25) S256x25.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x25.size a ≤ S1024x25.size a
  hwx0_2 : ∀ i : grid0.Coords, EltTy.bits .f32 = 32 ∨ (Rect.block (s := S1024x25) S256x25.size (cc0_transform_2 i) (hinb0_2 i)).WholeWords (EltTy.packing .f32)

variable [Facts₀]

def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf

abbrev win0_0 : Pipeline.Window sig grid0 :=
  Pipeline.Window.ofSpec (Memref.whole main_v2) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3_0) S256x25.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_1) S256x25.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond3 i == 1#1) | 2 => fun i => !(k0_cond3 i == 1#1) | ⟨_ + 3, h⟩ => absurd h (Nat.not_lt.2 (Nat.le_add_left _ _))

class Facts : Prop extends Facts₀ where

variable [Facts]
-- ==== ReferenceIdeal.lean ====
abbrev S4096x2x50x64 : Shape := ⟨4, ![4096, 2, 50, 64]⟩
abbrev S1024x50 : Shape := ⟨2, ![1024, 50]⟩
abbrev S4096x1x50x64 : Shape := ⟨4, ![4096, 1, 50, 64]⟩
abbrev S4096x50x64 : Shape := ⟨3, ![4096, 50, 64]⟩
abbrev S_ : Shape := ⟨0, ![]⟩
abbrev S4096x50 : Shape := ⟨2, ![4096, 50]⟩
abbrev S4096 : Shape := ⟨1, ![4096]⟩
abbrev S4096x1 : Shape := ⟨2, ![4096, 1]⟩

abbrev nBuf : Space → Nat
  | .hbm => 46
  | .vmem => 0
  | .smem => 0
  | _ => 0

abbrev bufTy : (tb : Table) → Fin (tcTables nBuf tb) → BufTy
  | .hbm, ⟨0, _⟩ => ⟨S4096x2x50x64, .f32⟩
  | .hbm, ⟨1, _⟩ => ⟨S1024x50, .f32⟩
  | .hbm, ⟨2, _⟩ => ⟨S4096x1x50x64, .f32⟩
  | .hbm, ⟨3, _⟩ => ⟨S4096x50x64, .f32⟩
  | .hbm, ⟨4, _⟩ => ⟨S4096x50x64, .f32⟩
  | .hbm, ⟨5, _⟩ => ⟨S_, .f32⟩
  | .hbm, ⟨6, _⟩ => ⟨S4096x50, .f32⟩
  | .hbm, ⟨7, _⟩ => ⟨S_, .f32⟩
  | .hbm, ⟨8, _⟩ => ⟨S4096x50, .f32⟩
  | .hbm, ⟨9, _⟩ => ⟨S4096x50, .i1⟩
  | .hbm, ⟨10, _⟩ => ⟨S4096, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S_, .i1⟩
  | .hbm, ⟨27, _⟩ => ⟨S4096, .i1⟩
  | .hbm, ⟨28, _⟩ => ⟨S4096, .i1⟩
  | .hbm, ⟨29, _⟩ => ⟨S4096, .i1⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x50, .f32⟩
  | .hbm, ⟨34, _⟩ => ⟨S_, .f32⟩
  | .hbm, ⟨35, _⟩ => ⟨S1024x50, .f32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S1024x50, .f32⟩
  | .hbm, ⟨45, _⟩ => ⟨S1024x50, .f32⟩
  | _, _ => ⟨S4096x2x50x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v7 : Ref sig .tc := ⟨.hbm, 32, rfl⟩
abbrev main_v8 : Ref sig .tc := ⟨.hbm, 33, rfl⟩
abbrev main_cst_1 : Ref sig .tc := ⟨.hbm, 34, rfl⟩
abbrev main_v9 : Ref sig .tc := ⟨.hbm, 35, rfl⟩
abbrev main_c_2 : Ref sig .tc := ⟨.hbm, 36, rfl⟩
abbrev main_v10 : Ref sig .tc := ⟨.hbm, 37, rfl⟩
abbrev main_v11 : Ref sig .tc := ⟨.hbm, 38, rfl⟩
abbrev main_c_3 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩

abbrev nD : Nat := 1
abbrev τ : Topo := Topo.v7x

variable {F : FTy → Type} [FloatOps F]

class Facts₀ : Prop where
  slices_S4096x2x50x64_S4096x1x50x64_0_0_0_0 : S4096x2x50x64.Slices ![0, 0, 0, 0] S4096x1x50x64
  shapeCasts_S4096x1x50x64_S4096x50x64 : S4096x1x50x64.ShapeCasts S4096x50x64
  reducesTo_S4096x50x64_S4096x50_d2 : S4096x50x64.ReducesTo [2] S4096x50
  h_S_ : 0 < S_.numel
  bcast_S_S4096x50 : S_.BroadcastsInDim S4096x50 (![] : Fin 0 → Fin S4096x50.rank)
  bcast_S_S4096 : S_.BroadcastsInDim S4096 (![] : Fin 0 → Fin S4096.rank)
  bcast_S_S1024x50 : S_.BroadcastsInDim S1024x50 (![] : Fin 0 → Fin S1024x50.rank)
  bcast_S4096_S4096x1_0 : S4096.BroadcastsInDim S4096x1 (![0] : Fin 1 → Fin S4096x1.rank)
  scatter_S1024x50_S4096x1_S4096x50_1_0_0_1_wf : ScatterDims.WF S1024x50 S4096x1 S4096x50 [1] [0] [0] 1

variable [Facts₀]

def scatter_S1024x50_S4096x1_S4096x50_1_0_0_1 : ScatterDims S1024x50 S4096x1 S4096x50 where
  updateWindowDims := [1]
  insertedWindowDims := [0]
  scatterDimsToOperandDims := [0]
  indexVectorDim := 1
  wf := scatter_S1024x50_S4096x1_S4096x50_1_0_0_1_wf

class Facts : Prop extends Facts₀ where

variable [Facts]
-- ==== Proof.BodyK.Cases.lean ====
/-
  The three control cases of the kernel body, decided over the 4 × 4 grid.

  A grid point `t` has coordinates `(r, q)` with `t = 4 r + q`. The body resets its scratch accumulator when
  `q = 0`, adds to it when `q > 0`, and copies two of its columns into the two output blocks when `q = 3`. Hence
  three cases: `t % 4 = 0` (reset only), `t % 4 ∈ {1, 2}` (add only) and `t % 4 = 3` (add, then emit). The two
  output windows are idle except at `t % 4 = 3`, which are exactly the points where their blocks are written back.
-/
import proofs.«163752_g34205119545578_cont_sun_m_983_21_alg».proof.Proof.Gen.Kernel.Skeleton
import proofs.«163752_g34205119545578_cont_sun_m_983_21_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The reset branch is taken: the second grid coordinate is `0`. -/
abbrev isFirst (i : grid0.Coords) : Prop :=
  (Scalar.cmpi .ne (Scalar.extui (Scalar.cmpi .eq (BitVec.ofNat 32 (i 1).val) 0#32)) 0#32) = 1#1
/-- The accumulate branch is taken: the second grid coordinate is positive. -/
abbrev isLater (i : grid0.Coords) : Prop :=
  (Scalar.cmpi .ne (Scalar.extui (Scalar.cmpi .sgt (BitVec.ofNat 32 (i 1).val) 0#32)) 0#32) = 1#1
/-- The emit branch is taken: the second grid coordinate is `3`. -/
abbrev isLast (i : grid0.Coords) : Prop := k0_cond3 i = 1#1

/-- The reset branch is taken exactly at the points `≡ 0 (mod 4)`. -/
theorem isFirst_iff : ∀ t : Fin cfg0.N, isFirst (grid0.coords t) ↔ t.val % 4 = 0 :=
  (by decide +kernel : ∀ t : Fin grid0.N, isFirst (grid0.coords t) ↔ t.val % 4 = 0)
/-- The accumulate branch is taken exactly at the points `≢ 0 (mod 4)`. -/
theorem isLater_iff : ∀ t : Fin cfg0.N, isLater (grid0.coords t) ↔ ¬ t.val % 4 = 0 :=
  (by decide +kernel : ∀ t : Fin grid0.N, isLater (grid0.coords t) ↔ ¬ t.val % 4 = 0)
/-- The emit branch is taken exactly at the points `≡ 3 (mod 4)`. -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

/-- The input window is never idle. -/
theorem live_in : ∀ t : Fin cfg0.N, cfg0.idle 0 (grid0.coords t) = false := by decide +kernel
/-- Away from the emitting points the first output window is idle … -/
theorem idle_out1 : ∀ t : Fin cfg0.N, ¬ t.val % 4 = 3 → cfg0.idle 1 (grid0.coords t) = true := by decide +kernel
/-- … and its block is not written back there. -/
theorem noFlush_out1 : ∀ t : Fin cfg0.N, ¬ t.val % 4 = 3 → (cfg0.win 1).flush t = false := by decide +kernel
/-- At an emitting point the first output window is live. -/
theorem live_out1 : ∀ t : Fin cfg0.N, t.val % 4 = 3 → cfg0.idle 1 (grid0.coords t) = false := by decide +kernel
/-- Away from the emitting points the second output window is idle … -/
theorem idle_out2 : ∀ t : Fin cfg0.N, ¬ t.val % 4 = 3 → cfg0.idle 2 (grid0.coords t) = true := by decide +kernel
/-- … and its block is not written back there. -/
theorem noFlush_out2 : ∀ t : Fin cfg0.N, ¬ t.val % 4 = 3 → (cfg0.win 2).flush t = false := by decide +kernel
/-- At an emitting point the second output window is live. -/
theorem live_out2 : ∀ t : Fin cfg0.N, t.val % 4 = 3 → cfg0.idle 2 (grid0.coords t) = false := by decide +kernel

/-! ## The memrefs the body is called with -/

/-- The input window's current staging memref at point `t`, and its wholeness. -/
abbrev mIn (t : Fin cfg0.N) : Memref sig .tc .vmem S6400x128 .f32 := win0_0.stage (cfg0.slots t 0)
abbrev hIn (t : Fin cfg0.N) : (mIn t).IsWhole := hstage0_0 ((cfg0.slots t 0).cast nbuf0_0)
/-- The first output window's. -/
abbrev mOut1 (t : Fin cfg0.N) : Memref sig .tc .vmem S256x25 .f32 := win0_1.stage (cfg0.slots t 1)
abbrev hOut1 (t : Fin cfg0.N) : (mOut1 t).IsWhole := hstage0_1 ((cfg0.slots t 1).cast nbuf0_1)
/-- The second output window's. -/
abbrev mOut2 (t : Fin cfg0.N) : Memref sig .tc .vmem S256x25 .f32 := win0_2.stage (cfg0.slots t 2)
abbrev hOut2 (t : Fin cfg0.N) : (mOut2 t).IsWhole := hstage0_2 ((cfg0.slots t 2).cast nbuf0_2)
/-- The scratch accumulator: a whole buffer of the kernel's own. -/
abbrev mAcc : Memref sig .tc .vmem S6400x128 .f32 := Memref.whole cc0_scratch0

/-- The region's standing invariant, with the scratch accumulator as a memref owned at some contents. -/
theorem inv_eq (c : Dev nD) :
    (Pipeline.ΦA spec0 c : sProp 𝕄)
      = iprop(iprop((∃ d, owns (c : Thread nD τ) mAcc fullShare d)) ∗ (∃ r, prngReg c r)) := by
  unfold Pipeline.ΦA; rw [scopedRest0_eq]; simp only [mAcc, owns_whole]; try rfl

end Cert.Kernel.Hand

end
-- ==== Proof.BodyK.RunFirst.lean ====
/-
  The body at a point with second coordinate `0`: it loads its input block, overwrites the whole scratch
  accumulator (whatever it held) with the block's row indicators, and touches neither output buffer.
-/
import proofs.«163752_g34205119545578_cont_sun_m_983_21_alg».proof.Proof.BodyK.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The reset case. On whole memrefs — the input's at `x0`, the two output buffers at any contents `xi1`, `xi2`,
    the accumulator at anything — the body runs to a continuation that holds the input and output buffers as
    they were and the accumulator with the found pieces `LS` written (one store covering it). -/
noncomputable def runFirst (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : isFirst i) (h2 : ¬isLater i) (h3 : ¬isLast i) (x0 : Vec F S6400x128 .f32) :
    { LS : List (View.Piece (Elt F) S6400x128 .f32) //
      ∀ (xi1 xi2 : Vec F S256x25 .f32) (E : Set ℕ) (K : PUnit → sProp 𝕄),
        iprop(owns (c : Thread nD τ) arg2 fullShare x0 ∗ owns (c : Thread nD τ) arg3 fullShare xi1 ∗ owns (c : Thread nD τ) arg4 fullShare xi2
            ∗ (∃ d, owns (c : Thread nD τ) arg5 fullShare d)
            ∗ (iprop(owns (c : Thread nD τ) arg2 fullShare x0 ∗ owns (c : Thread nD τ) arg3 fullShare xi1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc0__probe_body i arg2 harg2 arg3 harg3 arg4 harg4 arg5 harg5) K } := by
  refine ⟨?_, fun xi1 xi2 E K => ?run⟩
  case run =>
    simp only [cc0__probe_body_eq_skeleton]; unfold cc0__probe_body_skel
    simp only [k0_part1_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.BodyK.RunMid.lean ====
/-
  The body at a point with second coordinate `1` or `2`: it loads its input block, adds the block's row
  indicators to the scratch accumulator, and touches neither output buffer.
-/
import proofs.«163752_g34205119545578_cont_sun_m_983_21_alg».proof.Proof.BodyK.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulate case. On whole memrefs — the input's at `x0`, the two output buffers at any contents, the
    accumulator at what the point before left, `xs` — the body runs to a continuation that holds the input and
    output buffers as they were and the accumulator with the found pieces `LS` written. -/
noncomputable def runMid (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : ¬isFirst i) (h2 : isLater i) (h3 : ¬isLast i) (x0 : Vec F S6400x128 .f32) (xs : Vec F S6400x128 .f32) :
    { LS : List (View.Piece (Elt F) S6400x128 .f32) //
      ∀ (xi1 xi2 : Vec F S256x25 .f32) (E : Set ℕ) (K : PUnit → sProp 𝕄),
        iprop(owns (c : Thread nD τ) arg2 fullShare x0 ∗ owns (c : Thread nD τ) arg3 fullShare xi1 ∗ owns (c : Thread nD τ) arg4 fullShare xi2
            ∗ owns (c : Thread nD τ) arg5 fullShare xs
            ∗ (iprop(owns (c : Thread nD τ) arg2 fullShare x0 ∗ owns (c : Thread nD τ) arg3 fullShare xi1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc0__probe_body i arg2 harg2 arg3 harg3 arg4 harg4 arg5 harg5) K } := by
  refine ⟨?_, fun xi1 xi2 E K => ?run⟩
  case run =>
    simp only [cc0__probe_body_eq_skeleton]; unfold cc0__probe_body_skel
    simp only [k0_part1_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.BodyK.RunLast.lean ====
/-
  The body at a point with second coordinate `3`: it loads its input block, adds the block's row indicators to
  the scratch accumulator, then reads the accumulator back and stores its column 0 into the first output buffer
  and its column 64 into the second, each covering the buffer.
-/
import proofs.«163752_g34205119545578_cont_sun_m_983_21_alg».proof.Proof.BodyK.RunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The emit case. On whole memrefs — the input's at `x0`, the two output buffers at anything, the accumulator at
    what the point before left, `xs` — the body runs to a continuation that holds the input as it was and the two
    output buffers and the accumulator with the found pieces `L1`, `L2`, `LS` written. -/
noncomputable def runLast (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : ¬isFirst i) (h2 : isLater i) (h3 : isLast i) (x0 : Vec F S6400x128 .f32) (xs : Vec F S6400x128 .f32) :
    Σ' (L1 : List (View.Piece (Elt F) S256x25 .f32)) (L2 : List (View.Piece (Elt F) S256x25 .f32)), { LS : List (View.Piece (Elt F) S6400x128 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ owns (c : Thread nD τ) arg5 fullShare xs
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc0__probe_body i arg2 harg2 arg3 harg3 arg4 harg4 arg5 harg5) K } := by
  refine ⟨?_, ?_, ?_, fun E K => ?run⟩
  case run =>
    simp only [cc0__probe_body_eq_skeleton]; unfold cc0__probe_body_skel
    simp only [k0_part1_eq_skeleton]
    unfold owns
    iintro ⟨⟨%f0, %hf0, H0⟩, ⟨%d1, %f1, -, H1⟩, ⟨%d2, %f2, -, H2⟩, ⟨%fs, %hfs, HS⟩, Hk⟩
    obtain rfl := harg2.eq_unread hf0; obtain rfl := harg5.eq_unread hfs
    sl_exec (disch := first | exact h1 | exact h2 | exact h3)
    sl_step
    iapply Hk
    isplitl [H0]
    · iexists _; isplitr; · ipureintro; exact harg2.read_unread _
      iexact H0
    isplitl [H1]; · iexists _; iexact H1
    isplitl [H2]; · iexists _; iexact H2
    iexists _; iexact HS

end Cert.Kernel.Hand

end
-- ==== Proof.BodyK.Pieces.lean ====
/-
  What the body's stores leave, case by case, as pure functions of what it loaded: the reset case leaves the
  row indicators of the input block in the accumulator; the other two leave the accumulator's former contents plus
  those indicators; the emit case also leaves column 0 and column 64 of that sum, re-laid as 256 × 25 arrays, in
  the two output buffers. Each store covers its buffer, so what a buffer held before does not matter.
-/
import proofs.«163752_g34205119545578_cont_sun_m_983_21_alg».proof.Proof.BodyK.RunLast
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset of a rank-2 rectangle. -/
theorem off2_zero : (![0, 0] : Fin 2 → Nat) = fun _ => 0 := by funext a; fin_cases a <;> rfl

/-- The reset case's one store covers the accumulator. -/
theorem cover_first (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : isFirst i) (h2 : ¬isLater i) (h3 : ¬isLast i) (x0 : Vec F S6400x128 .f32) (y : S6400x128.Idx) :
    ∃ pc ∈ (runFirst c i arg2 harg2 arg3 harg3 arg4 harg4 arg5 harg5 h1 h2 h3 x0).1, y ∈ pc.1.set :=
  View.cover_of_tiledL (runFirst c i arg2 harg2 arg3 harg3 arg4 harg4 arg5 harg5 h1 h2 h3 x0).1 S6400x128.size (by sl_kernel_rfl) y

/-- After the reset case the accumulator holds the row indicators of the input block. -/
theorem read_first (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : isFirst i) (h2 : ¬isLater i) (h3 : ¬isLast i) (x0 : Vec F S6400x128 .f32) (f : arg5.view.ty.Contents (Elt F)) :
    arg5.view.read (Elt F) (arg5.view.writes (Elt F) f (runFirst c i arg2 harg2 arg3 harg3 arg4 harg4 arg5 harg5 h1 h2 h3 x0).1) = k0_pay6 x0 := by
  rw [View.read_writes_eq_canon _ _ _ (cover_first c i arg2 harg2 arg3 harg3 arg4 harg4 arg5 harg5 h1 h2 h3 x0)]
  unfold runFirst; dsimp only
  rw [View.canon_unit_zero off2_zero]
  simp only [View.readAt_eq_ld, harg2.read_unread, View.ld_unit_zero (S := S6400x128) off2_zero]

/-- The accumulate case's one store covers the accumulator. -/
theorem cover_mid (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : ¬isFirst i) (h2 : isLater i) (h3 : ¬isLast i) (x0 xs : Vec F S6400x128 .f32) (y : S6400x128.Idx) :
    ∃ pc ∈ (runMid c i arg2 harg2 arg3 harg3 arg4 harg4 arg5 harg5 h1 h2 h3 x0 xs).1, y ∈ pc.1.set :=
  View.cover_of_tiledL (runMid c i arg2 harg2 arg3 harg3 arg4 harg4 arg5 harg5 h1 h2 h3 x0 xs).1 S6400x128.size (by sl_kernel_rfl) y

/-- After the accumulate case the accumulator holds its former contents plus the block's row indicators. -/
theorem read_mid (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : ¬isFirst i) (h2 : isLater i) (h3 : ¬isLast i) (x0 xs : Vec F S6400x128 .f32) (f : arg5.view.ty.Contents (Elt F)) :
    arg5.view.read (Elt F) (arg5.view.writes (Elt F) f (runMid c i arg2 harg2 arg3 harg3 arg4 harg4 arg5 harg5 h1 h2 h3 x0 xs).1) = k0_pay1 (k0_pay5 x0) xs := by
  rw [View.read_writes_eq_canon _ _ _ (cover_mid c i arg2 harg2 arg3 harg3 arg4 harg4 arg5 harg5 h1 h2 h3 x0 xs)]
  unfold runMid; dsimp only; sl_unfold_words
  rw [View.canon_unit_zero off2_zero]
  simp only [View.readAt_eq_ld, harg2.read_unread, harg5.read_unread, View.ld_unit_zero (S := S6400x128) off2_zero]

/-- The emit case's store into the accumulator covers it. -/
theorem cover_last_acc (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : ¬isFirst i) (h2 : isLater i) (h3 : isLast i) (x0 xs : Vec F S6400x128 .f32) (y : S6400x128.Idx) :
    ∃ pc ∈ (runLast c i arg2 harg2 arg3 harg3 arg4 harg4 arg5 harg5 h1 h2 h3 x0 xs).2.2.1, y ∈ pc.1.set :=
  View.cover_of_tiledL (runLast c i arg2 harg2 arg3 harg3 arg4 harg4 arg5 harg5 h1 h2 h3 x0 xs).2.2.1 S6400x128.size (by sl_kernel_rfl) y
/-- Its store into the first output buffer covers it. -/
theorem cover_last_out1 (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : ¬isFirst i) (h2 : isLater i) (h3 : isLast i) (x0 xs : Vec F S6400x128 .f32) (y : S256x25.Idx) :
    ∃ pc ∈ (runLast c i arg2 harg2 arg3 harg3 arg4 harg4 arg5 harg5 h1 h2 h3 x0 xs).1, y ∈ pc.1.set :=
  View.cover_of_tiledL (runLast c i arg2 harg2 arg3 harg3 arg4 harg4 arg5 harg5 h1 h2 h3 x0 xs).1 S256x25.size (by sl_kernel_rfl) y
/-- Its store into the second output buffer covers it. -/
theorem cover_last_out2 (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : ¬isFirst i) (h2 : isLater i) (h3 : isLast i) (x0 xs : Vec F S6400x128 .f32) (y : S256x25.Idx) :
    ∃ pc ∈ (runLast c i arg2 harg2 arg3 harg3 arg4 harg4 arg5 harg5 h1 h2 h3 x0 xs).2.1, y ∈ pc.1.set :=
  View.cover_of_tiledL (runLast c i arg2 harg2 arg3 harg3 arg4 harg4 arg5 harg5 h1 h2 h3 x0 xs).2.1 S256x25.size (by sl_kernel_rfl) y

/-- After the emit case the accumulator holds its former contents plus the block's row indicators. -/
theorem read_last_acc (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : ¬isFirst i) (h2 : isLater i) (h3 : isLast i) (x0 xs : Vec F S6400x128 .f32) (f : arg5.view.ty.Contents (Elt F)) :
    arg5.view.read (Elt F) (arg5.view.writes (Elt F) f (runLast c i arg2 harg2 arg3 harg3 arg4 harg4 arg5 harg5 h1 h2 h3 x0 xs).2.2.1) = k0_pay1 (k0_pay5 x0) xs := by
  rw [View.read_writes_eq_canon _ _ _ (cover_last_acc c i arg2 harg2 arg3 harg3 arg4 harg4 arg5 harg5 h1 h2 h3 x0 xs)]
  unfold runLast; dsimp only; sl_unfold_words
  rw [View.canon_unit_zero off2_zero]
  simp only [View.readAt_eq_ld, harg2.read_unread, harg5.read_unread, View.ld_unit_zero (S := S6400x128) off2_zero]

/-- After the emit case the first output buffer holds column 0 of the new accumulator, re-laid as 256 × 25. -/
theorem read_last_out1 (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : ¬isFirst i) (h2 : isLater i) (h3 : isLast i) (x0 xs : Vec F S6400x128 .f32) (f : arg3.view.ty.Contents (Elt F)) :
    arg3.view.read (Elt F) (arg3.view.writes (Elt F) f (runLast c i arg2 harg2 arg3 harg3 arg4 harg4 arg5 harg5 h1 h2 h3 x0 xs).1) = k0_pay3 (k0_pay1 (k0_pay5 x0) xs) := by
  rw [View.read_writes_eq_canon _ _ _ (cover_last_out1 c i arg2 harg2 arg3 harg3 arg4 harg4 arg5 harg5 h1 h2 h3 x0 xs)]
  unfold runLast; dsimp only; sl_unfold_words
  rw [View.canon_unit_zero off2_zero]
  simp only [View.readAt_eq_ld, harg2.read_unread, harg5.read_unread, View.ld_unit_zero (S := S6400x128) off2_zero]
  rw [View.readCov_unit_zero (S := S6400x128) arg5.view off2_zero]

/-- After the emit case the second output buffer holds column 64 of the new accumulator, re-laid as 256 × 25. -/
theorem read_last_out2 (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : ¬isFirst i) (h2 : isLater i) (h3 : isLast i) (x0 xs : Vec F S6400x128 .f32) (f : arg4.view.ty.Contents (Elt F)) :
    arg4.view.read (Elt F) (arg4.view.writes (Elt F) f (runLast c i arg2 harg2 arg3 harg3 arg4 harg4 arg5 harg5 h1 h2 h3 x0 xs).2.1) = k0_pay4 (k0_pay1 (k0_pay5 x0) xs) := by
  rw [View.read_writes_eq_canon _ _ _ (cover_last_out2 c i arg2 harg2 arg3 harg3 arg4 harg4 arg5 harg5 h1 h2 h3 x0 xs)]
  unfold runLast; dsimp only; sl_unfold_words
  rw [View.canon_unit_zero off2_zero]
  simp only [View.readAt_eq_ld, harg2.read_unread, harg5.read_unread, View.ld_unit_zero (S := S6400x128) off2_zero]
  rw [View.readCov_unit_zero (S := S6400x128) arg5.view off2_zero]

end Cert.Kernel.Hand

end
-- ==== Proof.BodyK.Data.lean ====
/-
  The proof data of the one pipeline and the frame run.

  After the body at grid position `n` the scratch accumulator holds `accAt n`: the row indicators of the point's
  input block when `n ≡ 0 (mod 4)`, and otherwise what the position before left plus those indicators. The two
  output buffers hold column 0 and column 64 of it (re-laid as 256 × 25); this matters only at the positions
  `≡ 3 (mod 4)`, where the body stores into them and the pipeline writes their blocks back — elsewhere the windows
  are idle and handed back untouched. The region's invariant carries the accumulator from one point to the next.
-/
import proofs.«163752_g34205119545578_cont_sun_m_983_21_alg».proof.Proof.BodyK.Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulator holds after each point -/

/-- The input block of position `n` (of position `0` past the grid, where nothing reads it). -/
def blockAt (c : Dev nD) (n : ℕ) : Vec F S6400x128 .f32 :=
  if h : n < cfg0.N then iblk m c 0 ⟨n, h⟩ else iblk m c 0 t0_0

theorem blockAt_fin (c : Dev nD) (t : Fin cfg0.N) : blockAt m c t.val = iblk m c 0 t := by
  unfold blockAt; rw [dif_pos t.isLt]

/-- The accumulator after the body at position `n`. -/
def accAt (c : Dev nD) : ℕ → Vec F S6400x128 .f32
  | 0 => k0_pay6 (blockAt m c 0)
  | n + 1 =>
    if (n + 1) % 4 = 0 then k0_pay6 (blockAt m c (n + 1))
    else k0_pay1 (k0_pay5 (blockAt m c (n + 1))) (accAt c n)

/-- At a position `≡ 0 (mod 4)` the accumulator is reset to the block's row indicators. -/
theorem accAt_reset (c : Dev nD) (n : ℕ) (h0 : n % 4 = 0) : accAt m c n = k0_pay6 (blockAt m c n) := by
  cases n with
  | zero => rfl
  | succ n => exact if_pos h0

/-- At any other position it is what the position before left plus the block's row indicators. -/
theorem accAt_step (c : Dev nD) (n : ℕ) (h0 : ¬(n + 1) % 4 = 0) :
    accAt m c (n + 1) = k0_pay1 (k0_pay5 (blockAt m c (n + 1))) (accAt m c n) := if_neg h0

theorem accAt_first (c : Dev nD) (t : Fin cfg0.N) (h0 : t.val % 4 = 0) :
    accAt m c t.val = k0_pay6 (iblk m c 0 t) := by
  rw [accAt_reset m c _ h0, blockAt_fin]

theorem accAt_later (c : Dev nD) (t : Fin cfg0.N) (h0 : ¬t.val % 4 = 0) :
    accAt m c t.val = k0_pay1 (k0_pay5 (iblk m c 0 t)) (accAt m c (t.val - 1)) := by
  obtain ⟨n, hn⟩ := t
  cases n with
  | zero => exact absurd (Nat.zero_mod _) h0
  | succ n =>
    have e : blockAt m c (n + 1) = iblk m c 0 ⟨n + 1, hn⟩ := blockAt_fin m c ⟨n + 1, hn⟩
    show accAt m c (n + 1) = _
    rw [accAt_step m c n h0, e]; rfl

/-! ## The region's invariant -/

/-- Before position `n`: at the start the standing invariant (the accumulator at anything); afterwards the
    accumulator at what the position before left, and the generator register at some state. -/
def accInv (c : Dev nD) : (n : ℕ) → n ≤ cfg0.N → sProp 𝕄
  | 0, _ => Pipeline.ΦA spec0 c
  | n + 1, hn => iprop(iprop(owns (c : Thread nD τ) mAcc fullShare (accAt m c n)) ∗ (∃ r, prngReg c r))

theorem accInv_zero (c : Dev nD) (n : ℕ) (h : n ≤ cfg0.N) (hz : n = 0) : accInv m c n h = Pipeline.ΦA spec0 c := by
  subst hz; rfl

theorem accInv_succ (c : Dev nD) (n : ℕ) (hn : n < cfg0.N) :
    accInv m c (n + 1) hn = iprop(iprop(owns (c : Thread nD τ) mAcc fullShare (accAt m c n)) ∗ (∃ r, prngReg c r)) := rfl

theorem accInv_pos (c : Dev nD) (n : ℕ) (h : n ≤ cfg0.N) (hz : n ≠ 0) :
    accInv m c n h = iprop(iprop(owns (c : Thread nD τ) mAcc fullShare (accAt m c (n - 1))) ∗ (∃ r, prngReg c r)) := by
  cases n with
  | zero => exact absurd rfl hz
  | succ n => rfl

/-! ## The proof data -/

/-- The proof data on core `c`: the arrays as the region finds them; after the body at point `t` the input's
    buffer at its block and the output buffers at the two columns of the accumulator; the invariant `accInv`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => k0_pay3 (accAt m c t.val)
    | ⟨2, _⟩ => k0_pay4 (accAt m c t.val)
  Φ t := accInv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = accInv m c t.val (Nat.le_of_lt t.isLt) := by
  dsimp only [dats]; simp only [Fin.coe_castSucc]

theorem after_in (c : Dev nD) (t : Fin cfg0.N) : (dats m 0 c).after 0 t = iblk m c 0 t := by dsimp only [dats]
theorem after_out1 (c : Dev nD) (t : Fin cfg0.N) : (dats m 0 c).after 1 t = k0_pay3 (accAt m c t.val) := by dsimp only [dats]
theorem after_out2 (c : Dev nD) (t : Fin cfg0.N) : (dats m 0 c).after 2 t = k0_pay4 (accAt m c t.val) := by dsimp only [dats]

/-- The input's current staging buffer holds its block at every point. -/
theorem before_in (c : Dev nD) (t : Fin cfg0.N) (d) : (dats m 0 c).before 0 t d = iblk m c 0 t :=
  before0_0_of m (dats m 0 c) (A_eq m c 0) (after_in m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mIn t) fullShare ((dats m 0 c).before 0 t d))
    ∗ (∃ d, owns (c : Thread nD τ) (mOut1 t) fullShare ((dats m 0 c).before 1 t d))
    ∗ (∃ d, owns (c : Thread nD τ) (mOut2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The position's residue mod 4 says which case it is in; the invariant hands the body the
    accumulator (at anything at the very first point, at what the position before left afterwards) and takes it back
    at this position's contents; idle output windows come back untouched, live ones at the accumulator's columns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = accInv m c (t.val + 1) t.isLt from rfl, accInv_succ]
  have hN : t.val < 16 := lt_of_lt_of_eq t.isLt (show cfg0.N = 16 from N_0)
  rw [show (dats m 0 c).leavesExact 0 t = owns (c : Thread nD τ) (mIn t) fullShare ((dats m 0 c).after 0 t) from by
    unfold Dat.leavesExact; rw [live_in t], after_in]
  by_cases h0 : t.val % 4 = 0
  · -- reset
    have h3 : ¬t.val % 4 = 3 := by omega
    have c1 : isFirst (grid0.coords t) := (isFirst_iff t).mpr h0
    have c2 : ¬isLater (grid0.coords t) := fun h => (isLater_iff t).mp h h0
    have c3 : ¬isLast (grid0.coords t) := fun h => h3 ((isLast_iff t).mp h)
    rw [Dat.leavesExact_idle (dats m 0 c) 1 t (idle_out1 t h3) (noFlush_out1 t h3),
      Dat.leavesExact_idle (dats m 0 c) 2 t (idle_out2 t h3) (noFlush_out2 t h3)]
    rw [accAt_first m c t h0]
    have hpre : (dats m 0 c).Φ t.castSucc ⊢ iprop(iprop((∃ d, owns (c : Thread nD τ) mAcc fullShare d)) ∗ (∃ r, prngReg c r)) := by
      rw [inv_castSucc m c t]
      by_cases hz : t.val = 0
      · rw [accInv_zero m c _ _ hz, inv_eq]
      · rw [accInv_pos m c _ _ hz]
        iintro ⟨HS, Hg⟩
        isplitl [HS]
        · iexists _; iexact HS
        iexact Hg
    iintro ⟨HΦ, Ho, ⟨%d0, H0⟩, ⟨%d1, H1⟩, ⟨%d2, H2⟩⟩
    ihave HΦ' := hpre $$ HΦ
    icases HΦ' with ⟨HS, Hg⟩
    iapply ((runFirst c (grid0.coords t) _ _ _ _ _ _ _ _ c1 c2 c3 (iblk m c 0 t)).2 _ _ Set.univ _)
    isplitl [H0]; · iexact H0
    isplitl [H1]; · iexact H1
    isplitl [H2]; · iexact H2
    isplitl [HS]; · iexact HS
    iintro ⟨H0, H1, H2, ⟨%es, HS⟩⟩
    isplitl [HS Hg]
    · isplitl [HS]
      · unfold owns; iexists _; isplitr
        swap; · iexact HS
        ipureintro; exact read_first c _ _ _ _ _ _ _ _ _ c1 c2 c3 _ _
      iexact Hg
    isplitl [Ho]; · iexact Ho
    isplitl [H0]; · iexact H0
    isplitl [H1]; · iexists _; iexact H1
    iexists _; iexact H2
  · have hz : t.val ≠ 0 := fun h => h0 (by rw [h])
    have c1 : ¬isFirst (grid0.coords t) := fun h => h0 ((isFirst_iff t).mp h)
    have c2 : isLater (grid0.coords t) := (isLater_iff t).mpr h0
    rw [accAt_later m c t h0]
    rw [inv_castSucc m c t, accInv_pos m c _ _ hz]
    by_cases h3 : t.val % 4 = 3
    · -- emit
      have c3 : isLast (grid0.coords t) := (isLast_iff t).mpr h3
      rw [show (dats m 0 c).leavesExact 1 t = owns (c : Thread nD τ) (mOut1 t) fullShare ((dats m 0 c).after 1 t) from by
        unfold Dat.leavesExact; rw [live_out1 t h3], after_out1]
      rw [show (dats m 0 c).leavesExact 2 t = owns (c : Thread nD τ) (mOut2 t) fullShare ((dats m 0 c).after 2 t) from by
        unfold Dat.leavesExact; rw [live_out2 t h3], after_out2]
      rw [accAt_later m c t h0]
      iintro ⟨⟨HS, Hg⟩, Ho, ⟨%d0, H0⟩, ⟨%d1, H1⟩, ⟨%d2, H2⟩⟩
      iapply ((runLast c (grid0.coords t) _ _ _ _ _ _ _ _ c1 c2 c3 (iblk m c 0 t) _).2.2.2 Set.univ _)
      isplitl [H0]; · iexact H0
      isplitl [H1]; · iexists _; iexact H1
      isplitl [H2]; · iexists _; iexact H2
      isplitl [HS]; · iexact HS
      iintro ⟨H0, ⟨%e1, H1⟩, ⟨%e2, H2⟩, ⟨%es, HS⟩⟩
      isplitl [HS Hg]
      · isplitl [HS]
        · unfold owns; iexists _; isplitr
          swap; · iexact HS
          ipureintro; exact read_last_acc c _ _ _ _ _ _ _ _ _ c1 c2 c3 _ _ _
        iexact Hg
      isplitl [Ho]; · iexact Ho
      isplitl [H0]; · iexact H0
      isplitl [H1]
      · unfold owns; iexists _; isplitr
        swap; · iexact H1
        ipureintro; exact read_last_out1 c _ _ _ _ _ _ _ _ _ c1 c2 c3 _ _ _
      unfold owns; iexists _; isplitr
      swap; · iexact H2
      ipureintro; exact read_last_out2 c _ _ _ _ _ _ _ _ _ c1 c2 c3 _ _ _
    · -- accumulate
      have c3 : ¬isLast (grid0.coords t) := fun h => h3 ((isLast_iff t).mp h)
      rw [Dat.leavesExact_idle (dats m 0 c) 1 t (idle_out1 t h3) (noFlush_out1 t h3),
        Dat.leavesExact_idle (dats m 0 c) 2 t (idle_out2 t h3) (noFlush_out2 t h3)]
      iintro ⟨⟨HS, Hg⟩, Ho, ⟨%d0, H0⟩, ⟨%d1, H1⟩, ⟨%d2, H2⟩⟩
      iapply ((runMid c (grid0.coords t) _ _ _ _ _ _ _ _ c1 c2 c3 (iblk m c 0 t) _).2 _ _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact read_mid c _ _ _ _ _ _ _ _ _ c1 c2 c3 _ _ _
        iexact Hg
      isplitl [Ho]; · iexact Ho
      isplitl [H0]; · iexact H0
      isplitl [H1]; · iexists _; iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = accInv m c 0 (Nat.zero_le _) from rfl, accInv_zero m c 0 _ rfl]
  try exact Idealize.SL.BI.Entails.refl _

/-- After the last point the invariant gives the standing one back: the accumulator's contents are forgotten. -/
theorem inv_out (c : Dev nD) : (dats m 0 c).Φ (Fin.last cfg0.N) ⊢ Pipeline.ΦA spec0 c := by
  have ht : (Fin.last cfg0.N).val ≠ 0 := by rw [Fin.val_last]; have : cfg0.N = 16 := N_0; omega
  rw [show (dats m 0 c).Φ (Fin.last cfg0.N) = accInv m c (Fin.last cfg0.N).val (Nat.le_of_lt_succ (Fin.last cfg0.N).isLt) from rfl,
    accInv_pos m c _ _ ht, inv_eq]
  iintro ⟨HS, Hg⟩
  isplitl [HS]
  · iexists _; iexact HS
  iexact Hg

/-! ## The run and the frame -/

set_option backward.isDefEq.respectTransparency.types false in
/-- From any memory with zero counters every weakly fair execution of @main terminates, each array of the pipeline
    ending at what the proof data compute and every other buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.BodyI.Cases.lean ====
/-
  The three control cases of the kernel body, decided over the 4 × 4 grid.

  A grid point `t` has coordinates `(r, q)` with `t = 4 r + q`. The body resets its scratch accumulator when
  `q = 0`, adds to it when `q > 0`, and copies two of its columns into the two output blocks when `q = 3`. Hence
  three cases: `t % 4 = 0` (reset only), `t % 4 ∈ {1, 2}` (add only) and `t % 4 = 3` (add, then emit). The two
  output windows are idle except at `t % 4 = 3`, which are exactly the points where their blocks are written back.
-/
import proofs.«163752_g34205119545578_cont_sun_m_983_21_alg».proof.Proof.Gen.KernelIdeal.Skeleton
import proofs.«163752_g34205119545578_cont_sun_m_983_21_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The reset branch is taken: the second grid coordinate is `0`. -/
abbrev isFirst (i : grid0.Coords) : Prop :=
  (Scalar.cmpi .ne (Scalar.extui (Scalar.cmpi .eq (BitVec.ofNat 32 (i 1).val) 0#32)) 0#32) = 1#1
/-- The accumulate branch is taken: the second grid coordinate is positive. -/
abbrev isLater (i : grid0.Coords) : Prop :=
  (Scalar.cmpi .ne (Scalar.extui (Scalar.cmpi .sgt (BitVec.ofNat 32 (i 1).val) 0#32)) 0#32) = 1#1
/-- The emit branch is taken: the second grid coordinate is `3`. -/
abbrev isLast (i : grid0.Coords) : Prop := k0_cond3 i = 1#1

/-- The reset branch is taken exactly at the points `≡ 0 (mod 4)`. -/
theorem isFirst_iff : ∀ t : Fin cfg0.N, isFirst (grid0.coords t) ↔ t.val % 4 = 0 :=
  (by decide +kernel : ∀ t : Fin grid0.N, isFirst (grid0.coords t) ↔ t.val % 4 = 0)
/-- The accumulate branch is taken exactly at the points `≢ 0 (mod 4)`. -/
theorem isLater_iff : ∀ t : Fin cfg0.N, isLater (grid0.coords t) ↔ ¬ t.val % 4 = 0 :=
  (by decide +kernel : ∀ t : Fin grid0.N, isLater (grid0.coords t) ↔ ¬ t.val % 4 = 0)
/-- The emit branch is taken exactly at the points `≡ 3 (mod 4)`. -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

/-- The input window is never idle. -/
theorem live_in : ∀ t : Fin cfg0.N, cfg0.idle 0 (grid0.coords t) = false := by decide +kernel
/-- Away from the emitting points the first output window is idle … -/
theorem idle_out1 : ∀ t : Fin cfg0.N, ¬ t.val % 4 = 3 → cfg0.idle 1 (grid0.coords t) = true := by decide +kernel
/-- … and its block is not written back there. -/
theorem noFlush_out1 : ∀ t : Fin cfg0.N, ¬ t.val % 4 = 3 → (cfg0.win 1).flush t = false := by decide +kernel
/-- At an emitting point the first output window is live. -/
theorem live_out1 : ∀ t : Fin cfg0.N, t.val % 4 = 3 → cfg0.idle 1 (grid0.coords t) = false := by decide +kernel
/-- Away from the emitting points the second output window is idle … -/
theorem idle_out2 : ∀ t : Fin cfg0.N, ¬ t.val % 4 = 3 → cfg0.idle 2 (grid0.coords t) = true := by decide +kernel
/-- … and its block is not written back there. -/
theorem noFlush_out2 : ∀ t : Fin cfg0.N, ¬ t.val % 4 = 3 → (cfg0.win 2).flush t = false := by decide +kernel
/-- At an emitting point the second output window is live. -/
theorem live_out2 : ∀ t : Fin cfg0.N, t.val % 4 = 3 → cfg0.idle 2 (grid0.coords t) = false := by decide +kernel

/-! ## The memrefs the body is called with -/

/-- The input window's current staging memref at point `t`, and its wholeness. -/
abbrev mIn (t : Fin cfg0.N) : Memref sig .tc .vmem S6400x128 .f32 := win0_0.stage (cfg0.slots t 0)
abbrev hIn (t : Fin cfg0.N) : (mIn t).IsWhole := hstage0_0 ((cfg0.slots t 0).cast nbuf0_0)
/-- The first output window's. -/
abbrev mOut1 (t : Fin cfg0.N) : Memref sig .tc .vmem S256x25 .f32 := win0_1.stage (cfg0.slots t 1)
abbrev hOut1 (t : Fin cfg0.N) : (mOut1 t).IsWhole := hstage0_1 ((cfg0.slots t 1).cast nbuf0_1)
/-- The second output window's. -/
abbrev mOut2 (t : Fin cfg0.N) : Memref sig .tc .vmem S256x25 .f32 := win0_2.stage (cfg0.slots t 2)
abbrev hOut2 (t : Fin cfg0.N) : (mOut2 t).IsWhole := hstage0_2 ((cfg0.slots t 2).cast nbuf0_2)
/-- The scratch accumulator: a whole buffer of the kernel's own. -/
abbrev mAcc : Memref sig .tc .vmem S6400x128 .f32 := Memref.whole cc0_scratch0

/-- The region's standing invariant, with the scratch accumulator as a memref owned at some contents. -/
theorem inv_eq (c : Dev nD) :
    (Pipeline.ΦA spec0 c : sProp 𝕄)
      = iprop(iprop((∃ d, owns (c : Thread nD τ) mAcc fullShare d)) ∗ (∃ r, prngReg c r)) := by
  unfold Pipeline.ΦA; rw [scopedRest0_eq]; simp only [mAcc, owns_whole]; try rfl

end Cert.KernelIdeal.Hand

end
-- ==== Proof.BodyI.RunFirst.lean ====
/-
  The body at a point with second coordinate `0`: it loads its input block, overwrites the whole scratch
  accumulator (whatever it held) with the block's row indicators, and touches neither output buffer.
-/
import proofs.«163752_g34205119545578_cont_sun_m_983_21_alg».proof.Proof.BodyI.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The reset case. On whole memrefs — the input's at `x0`, the two output buffers at any contents `xi1`, `xi2`,
    the accumulator at anything — the body runs to a continuation that holds the input and output buffers as
    they were and the accumulator with the found pieces `LS` written (one store covering it). -/
noncomputable def runFirst (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : isFirst i) (h2 : ¬isLater i) (h3 : ¬isLast i) (x0 : Vec F S6400x128 .f32) :
    { LS : List (View.Piece (Elt F) S6400x128 .f32) //
      ∀ (xi1 xi2 : Vec F S256x25 .f32) (E : Set ℕ) (K : PUnit → sProp 𝕄),
        iprop(owns (c : Thread nD τ) arg2 fullShare x0 ∗ owns (c : Thread nD τ) arg3 fullShare xi1 ∗ owns (c : Thread nD τ) arg4 fullShare xi2
            ∗ (∃ d, owns (c : Thread nD τ) arg5 fullShare d)
            ∗ (iprop(owns (c : Thread nD τ) arg2 fullShare x0 ∗ owns (c : Thread nD τ) arg3 fullShare xi1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc0__probe_body i arg2 harg2 arg3 harg3 arg4 harg4 arg5 harg5) K } := by
  refine ⟨?_, fun xi1 xi2 E K => ?run⟩
  case run =>
    simp only [cc0__probe_body_eq_skeleton]; unfold cc0__probe_body_skel
    simp only [k0_part1_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.BodyI.RunMid.lean ====
/-
  The body at a point with second coordinate `1` or `2`: it loads its input block, adds the block's row
  indicators to the scratch accumulator, and touches neither output buffer.
-/
import proofs.«163752_g34205119545578_cont_sun_m_983_21_alg».proof.Proof.BodyI.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulate case. On whole memrefs — the input's at `x0`, the two output buffers at any contents, the
    accumulator at what the point before left, `xs` — the body runs to a continuation that holds the input and
    output buffers as they were and the accumulator with the found pieces `LS` written. -/
noncomputable def runMid (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : ¬isFirst i) (h2 : isLater i) (h3 : ¬isLast i) (x0 : Vec F S6400x128 .f32) (xs : Vec F S6400x128 .f32) :
    { LS : List (View.Piece (Elt F) S6400x128 .f32) //
      ∀ (xi1 xi2 : Vec F S256x25 .f32) (E : Set ℕ) (K : PUnit → sProp 𝕄),
        iprop(owns (c : Thread nD τ) arg2 fullShare x0 ∗ owns (c : Thread nD τ) arg3 fullShare xi1 ∗ owns (c : Thread nD τ) arg4 fullShare xi2
            ∗ owns (c : Thread nD τ) arg5 fullShare xs
            ∗ (iprop(owns (c : Thread nD τ) arg2 fullShare x0 ∗ owns (c : Thread nD τ) arg3 fullShare xi1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc0__probe_body i arg2 harg2 arg3 harg3 arg4 harg4 arg5 harg5) K } := by
  refine ⟨?_, fun xi1 xi2 E K => ?run⟩
  case run =>
    simp only [cc0__probe_body_eq_skeleton]; unfold cc0__probe_body_skel
    simp only [k0_part1_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.BodyI.RunLast.lean ====
/-
  The body at a point with second coordinate `3`: it loads its input block, adds the block's row indicators to
  the scratch accumulator, then reads the accumulator back and stores its column 0 into the first output buffer
  and its column 64 into the second, each covering the buffer.
-/
import proofs.«163752_g34205119545578_cont_sun_m_983_21_alg».proof.Proof.BodyI.RunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The emit case. On whole memrefs — the input's at `x0`, the two output buffers at anything, the accumulator at
    what the point before left, `xs` — the body runs to a continuation that holds the input as it was and the two
    output buffers and the accumulator with the found pieces `L1`, `L2`, `LS` written. -/
noncomputable def runLast (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : ¬isFirst i) (h2 : isLater i) (h3 : isLast i) (x0 : Vec F S6400x128 .f32) (xs : Vec F S6400x128 .f32) :
    Σ' (L1 : List (View.Piece (Elt F) S256x25 .f32)) (L2 : List (View.Piece (Elt F) S256x25 .f32)), { LS : List (View.Piece (Elt F) S6400x128 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ owns (c : Thread nD τ) arg5 fullShare xs
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc0__probe_body i arg2 harg2 arg3 harg3 arg4 harg4 arg5 harg5) K } := by
  refine ⟨?_, ?_, ?_, fun E K => ?run⟩
  case run =>
    simp only [cc0__probe_body_eq_skeleton]; unfold cc0__probe_body_skel
    simp only [k0_part1_eq_skeleton]
    unfold owns
    iintro ⟨⟨%f0, %hf0, H0⟩, ⟨%d1, %f1, -, H1⟩, ⟨%d2, %f2, -, H2⟩, ⟨%fs, %hfs, HS⟩, Hk⟩
    obtain rfl := harg2.eq_unread hf0; obtain rfl := harg5.eq_unread hfs
    sl_exec (disch := first | exact h1 | exact h2 | exact h3)
    sl_step
    iapply Hk
    isplitl [H0]
    · iexists _; isplitr; · ipureintro; exact harg2.read_unread _
      iexact H0
    isplitl [H1]; · iexists _; iexact H1
    isplitl [H2]; · iexists _; iexact H2
    iexists _; iexact HS

end Cert.KernelIdeal.Hand

end
-- ==== Proof.BodyI.Pieces.lean ====
/-
  What the body's stores leave, case by case, as pure functions of what it loaded: the reset case leaves the
  row indicators of the input block in the accumulator; the other two leave the accumulator's former contents plus
  those indicators; the emit case also leaves column 0 and column 64 of that sum, re-laid as 256 × 25 arrays, in
  the two output buffers. Each store covers its buffer, so what a buffer held before does not matter.
-/
import proofs.«163752_g34205119545578_cont_sun_m_983_21_alg».proof.Proof.BodyI.RunLast
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset of a rank-2 rectangle. -/
theorem off2_zero : (![0, 0] : Fin 2 → Nat) = fun _ => 0 := by funext a; fin_cases a <;> rfl

/-- The reset case's one store covers the accumulator. -/
theorem cover_first (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : isFirst i) (h2 : ¬isLater i) (h3 : ¬isLast i) (x0 : Vec F S6400x128 .f32) (y : S6400x128.Idx) :
    ∃ pc ∈ (runFirst c i arg2 harg2 arg3 harg3 arg4 harg4 arg5 harg5 h1 h2 h3 x0).1, y ∈ pc.1.set :=
  View.cover_of_tiledL (runFirst c i arg2 harg2 arg3 harg3 arg4 harg4 arg5 harg5 h1 h2 h3 x0).1 S6400x128.size (by sl_kernel_rfl) y

/-- After the reset case the accumulator holds the row indicators of the input block. -/
theorem read_first (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : isFirst i) (h2 : ¬isLater i) (h3 : ¬isLast i) (x0 : Vec F S6400x128 .f32) (f : arg5.view.ty.Contents (Elt F)) :
    arg5.view.read (Elt F) (arg5.view.writes (Elt F) f (runFirst c i arg2 harg2 arg3 harg3 arg4 harg4 arg5 harg5 h1 h2 h3 x0).1) = k0_pay6 x0 := by
  rw [View.read_writes_eq_canon _ _ _ (cover_first c i arg2 harg2 arg3 harg3 arg4 harg4 arg5 harg5 h1 h2 h3 x0)]
  unfold runFirst; dsimp only
  rw [View.canon_unit_zero off2_zero]
  simp only [View.readAt_eq_ld, harg2.read_unread, View.ld_unit_zero (S := S6400x128) off2_zero]

/-- The accumulate case's one store covers the accumulator. -/
theorem cover_mid (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : ¬isFirst i) (h2 : isLater i) (h3 : ¬isLast i) (x0 xs : Vec F S6400x128 .f32) (y : S6400x128.Idx) :
    ∃ pc ∈ (runMid c i arg2 harg2 arg3 harg3 arg4 harg4 arg5 harg5 h1 h2 h3 x0 xs).1, y ∈ pc.1.set :=
  View.cover_of_tiledL (runMid c i arg2 harg2 arg3 harg3 arg4 harg4 arg5 harg5 h1 h2 h3 x0 xs).1 S6400x128.size (by sl_kernel_rfl) y

/-- After the accumulate case the accumulator holds its former contents plus the block's row indicators. -/
theorem read_mid (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : ¬isFirst i) (h2 : isLater i) (h3 : ¬isLast i) (x0 xs : Vec F S6400x128 .f32) (f : arg5.view.ty.Contents (Elt F)) :
    arg5.view.read (Elt F) (arg5.view.writes (Elt F) f (runMid c i arg2 harg2 arg3 harg3 arg4 harg4 arg5 harg5 h1 h2 h3 x0 xs).1) = k0_pay1 (k0_pay5 x0) xs := by
  rw [View.read_writes_eq_canon _ _ _ (cover_mid c i arg2 harg2 arg3 harg3 arg4 harg4 arg5 harg5 h1 h2 h3 x0 xs)]
  unfold runMid; dsimp only; sl_unfold_words
  rw [View.canon_unit_zero off2_zero]
  simp only [View.readAt_eq_ld, harg2.read_unread, harg5.read_unread, View.ld_unit_zero (S := S6400x128) off2_zero]

/-- The emit case's store into the accumulator covers it. -/
theorem cover_last_acc (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : ¬isFirst i) (h2 : isLater i) (h3 : isLast i) (x0 xs : Vec F S6400x128 .f32) (y : S6400x128.Idx) :
    ∃ pc ∈ (runLast c i arg2 harg2 arg3 harg3 arg4 harg4 arg5 harg5 h1 h2 h3 x0 xs).2.2.1, y ∈ pc.1.set :=
  View.cover_of_tiledL (runLast c i arg2 harg2 arg3 harg3 arg4 harg4 arg5 harg5 h1 h2 h3 x0 xs).2.2.1 S6400x128.size (by sl_kernel_rfl) y
/-- Its store into the first output buffer covers it. -/
theorem cover_last_out1 (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : ¬isFirst i) (h2 : isLater i) (h3 : isLast i) (x0 xs : Vec F S6400x128 .f32) (y : S256x25.Idx) :
    ∃ pc ∈ (runLast c i arg2 harg2 arg3 harg3 arg4 harg4 arg5 harg5 h1 h2 h3 x0 xs).1, y ∈ pc.1.set :=
  View.cover_of_tiledL (runLast c i arg2 harg2 arg3 harg3 arg4 harg4 arg5 harg5 h1 h2 h3 x0 xs).1 S256x25.size (by sl_kernel_rfl) y
/-- Its store into the second output buffer covers it. -/
theorem cover_last_out2 (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : ¬isFirst i) (h2 : isLater i) (h3 : isLast i) (x0 xs : Vec F S6400x128 .f32) (y : S256x25.Idx) :
    ∃ pc ∈ (runLast c i arg2 harg2 arg3 harg3 arg4 harg4 arg5 harg5 h1 h2 h3 x0 xs).2.1, y ∈ pc.1.set :=
  View.cover_of_tiledL (runLast c i arg2 harg2 arg3 harg3 arg4 harg4 arg5 harg5 h1 h2 h3 x0 xs).2.1 S256x25.size (by sl_kernel_rfl) y

/-- After the emit case the accumulator holds its former contents plus the block's row indicators. -/
theorem read_last_acc (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : ¬isFirst i) (h2 : isLater i) (h3 : isLast i) (x0 xs : Vec F S6400x128 .f32) (f : arg5.view.ty.Contents (Elt F)) :
    arg5.view.read (Elt F) (arg5.view.writes (Elt F) f (runLast c i arg2 harg2 arg3 harg3 arg4 harg4 arg5 harg5 h1 h2 h3 x0 xs).2.2.1) = k0_pay1 (k0_pay5 x0) xs := by
  rw [View.read_writes_eq_canon _ _ _ (cover_last_acc c i arg2 harg2 arg3 harg3 arg4 harg4 arg5 harg5 h1 h2 h3 x0 xs)]
  unfold runLast; dsimp only; sl_unfold_words
  rw [View.canon_unit_zero off2_zero]
  simp only [View.readAt_eq_ld, harg2.read_unread, harg5.read_unread, View.ld_unit_zero (S := S6400x128) off2_zero]

/-- After the emit case the first output buffer holds column 0 of the new accumulator, re-laid as 256 × 25. -/
theorem read_last_out1 (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : ¬isFirst i) (h2 : isLater i) (h3 : isLast i) (x0 xs : Vec F S6400x128 .f32) (f : arg3.view.ty.Contents (Elt F)) :
    arg3.view.read (Elt F) (arg3.view.writes (Elt F) f (runLast c i arg2 harg2 arg3 harg3 arg4 harg4 arg5 harg5 h1 h2 h3 x0 xs).1) = k0_pay3 (k0_pay1 (k0_pay5 x0) xs) := by
  rw [View.read_writes_eq_canon _ _ _ (cover_last_out1 c i arg2 harg2 arg3 harg3 arg4 harg4 arg5 harg5 h1 h2 h3 x0 xs)]
  unfold runLast; dsimp only; sl_unfold_words
  rw [View.canon_unit_zero off2_zero]
  simp only [View.readAt_eq_ld, harg2.read_unread, harg5.read_unread, View.ld_unit_zero (S := S6400x128) off2_zero]
  rw [View.readCov_unit_zero (S := S6400x128) arg5.view off2_zero]

/-- After the emit case the second output buffer holds column 64 of the new accumulator, re-laid as 256 × 25. -/
theorem read_last_out2 (c : Dev nD) (i : grid0.Coords) (arg2 : Memref sig .tc .vmem S6400x128 .f32) (harg2 : arg2.IsWhole) (arg3 : Memref sig .tc .vmem S256x25 .f32) (harg3 : arg3.IsWhole) (arg4 : Memref sig .tc .vmem S256x25 .f32) (harg4 : arg4.IsWhole) (arg5 : Memref sig .tc .vmem S6400x128 .f32) (harg5 : arg5.IsWhole)
    (h1 : ¬isFirst i) (h2 : isLater i) (h3 : isLast i) (x0 xs : Vec F S6400x128 .f32) (f : arg4.view.ty.Contents (Elt F)) :
    arg4.view.read (Elt F) (arg4.view.writes (Elt F) f (runLast c i arg2 harg2 arg3 harg3 arg4 harg4 arg5 harg5 h1 h2 h3 x0 xs).2.1) = k0_pay4 (k0_pay1 (k0_pay5 x0) xs) := by
  rw [View.read_writes_eq_canon _ _ _ (cover_last_out2 c i arg2 harg2 arg3 harg3 arg4 harg4 arg5 harg5 h1 h2 h3 x0 xs)]
  unfold runLast; dsimp only; sl_unfold_words
  rw [View.canon_unit_zero off2_zero]
  simp only [View.readAt_eq_ld, harg2.read_unread, harg5.read_unread, View.ld_unit_zero (S := S6400x128) off2_zero]
  rw [View.readCov_unit_zero (S := S6400x128) arg5.view off2_zero]

end Cert.KernelIdeal.Hand

end
-- ==== Proof.BodyI.Data.lean ====
/-
  The proof data of the one pipeline and the frame run.

  After the body at grid position `n` the scratch accumulator holds `accAt n`: the row indicators of the point's
  input block when `n ≡ 0 (mod 4)`, and otherwise what the position before left plus those indicators. The two
  output buffers hold column 0 and column 64 of it (re-laid as 256 × 25); this matters only at the positions
  `≡ 3 (mod 4)`, where the body stores into them and the pipeline writes their blocks back — elsewhere the windows
  are idle and handed back untouched. The region's invariant carries the accumulator from one point to the next.
-/
import proofs.«163752_g34205119545578_cont_sun_m_983_21_alg».proof.Proof.BodyI.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulator holds after each point -/

/-- The input block of position `n` (of position `0` past the grid, where nothing reads it). -/
def blockAt (c : Dev nD) (n : ℕ) : Vec F S6400x128 .f32 :=
  if h : n < cfg0.N then iblk m c 0 ⟨n, h⟩ else iblk m c 0 t0_0

theorem blockAt_fin (c : Dev nD) (t : Fin cfg0.N) : blockAt m c t.val = iblk m c 0 t := by
  unfold blockAt; rw [dif_pos t.isLt]

/-- The accumulator after the body at position `n`. -/
def accAt (c : Dev nD) : ℕ → Vec F S6400x128 .f32
  | 0 => k0_pay6 (blockAt m c 0)
  | n + 1 =>
    if (n + 1) % 4 = 0 then k0_pay6 (blockAt m c (n + 1))
    else k0_pay1 (k0_pay5 (blockAt m c (n + 1))) (accAt c n)

/-- At a position `≡ 0 (mod 4)` the accumulator is reset to the block's row indicators. -/
theorem accAt_reset (c : Dev nD) (n : ℕ) (h0 : n % 4 = 0) : accAt m c n = k0_pay6 (blockAt m c n) := by
  cases n with
  | zero => rfl
  | succ n => exact if_pos h0

/-- At any other position it is what the position before left plus the block's row indicators. -/
theorem accAt_step (c : Dev nD) (n : ℕ) (h0 : ¬(n + 1) % 4 = 0) :
    accAt m c (n + 1) = k0_pay1 (k0_pay5 (blockAt m c (n + 1))) (accAt m c n) := if_neg h0

theorem accAt_first (c : Dev nD) (t : Fin cfg0.N) (h0 : t.val % 4 = 0) :
    accAt m c t.val = k0_pay6 (iblk m c 0 t) := by
  rw [accAt_reset m c _ h0, blockAt_fin]

theorem accAt_later (c : Dev nD) (t : Fin cfg0.N) (h0 : ¬t.val % 4 = 0) :
    accAt m c t.val = k0_pay1 (k0_pay5 (iblk m c 0 t)) (accAt m c (t.val - 1)) := by
  obtain ⟨n, hn⟩ := t
  cases n with
  | zero => exact absurd (Nat.zero_mod _) h0
  | succ n =>
    have e : blockAt m c (n + 1) = iblk m c 0 ⟨n + 1, hn⟩ := blockAt_fin m c ⟨n + 1, hn⟩
    show accAt m c (n + 1) = _
    rw [accAt_step m c n h0, e]; rfl

/-! ## The region's invariant -/

/-- Before position `n`: at the start the standing invariant (the accumulator at anything); afterwards the
    accumulator at what the position before left, and the generator register at some state. -/
def accInv (c : Dev nD) : (n : ℕ) → n ≤ cfg0.N → sProp 𝕄
  | 0, _ => Pipeline.ΦA spec0 c
  | n + 1, hn => iprop(iprop(owns (c : Thread nD τ) mAcc fullShare (accAt m c n)) ∗ (∃ r, prngReg c r))

theorem accInv_zero (c : Dev nD) (n : ℕ) (h : n ≤ cfg0.N) (hz : n = 0) : accInv m c n h = Pipeline.ΦA spec0 c := by
  subst hz; rfl

theorem accInv_succ (c : Dev nD) (n : ℕ) (hn : n < cfg0.N) :
    accInv m c (n + 1) hn = iprop(iprop(owns (c : Thread nD τ) mAcc fullShare (accAt m c n)) ∗ (∃ r, prngReg c r)) := rfl

theorem accInv_pos (c : Dev nD) (n : ℕ) (h : n ≤ cfg0.N) (hz : n ≠ 0) :
    accInv m c n h = iprop(iprop(owns (c : Thread nD τ) mAcc fullShare (accAt m c (n - 1))) ∗ (∃ r, prngReg c r)) := by
  cases n with
  | zero => exact absurd rfl hz
  | succ n => rfl

/-! ## The proof data -/

/-- The proof data on core `c`: the arrays as the region finds them; after the body at point `t` the input's
    buffer at its block and the output buffers at the two columns of the accumulator; the invariant `accInv`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => k0_pay3 (accAt m c t.val)
    | ⟨2, _⟩ => k0_pay4 (accAt m c t.val)
  Φ t := accInv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = accInv m c t.val (Nat.le_of_lt t.isLt) := by
  dsimp only [dats]; simp only [Fin.coe_castSucc]

theorem after_in (c : Dev nD) (t : Fin cfg0.N) : (dats m 0 c).after 0 t = iblk m c 0 t := by dsimp only [dats]
theorem after_out1 (c : Dev nD) (t : Fin cfg0.N) : (dats m 0 c).after 1 t = k0_pay3 (accAt m c t.val) := by dsimp only [dats]
theorem after_out2 (c : Dev nD) (t : Fin cfg0.N) : (dats m 0 c).after 2 t = k0_pay4 (accAt m c t.val) := by dsimp only [dats]

/-- The input's current staging buffer holds its block at every point. -/
theorem before_in (c : Dev nD) (t : Fin cfg0.N) (d) : (dats m 0 c).before 0 t d = iblk m c 0 t :=
  before0_0_of m (dats m 0 c) (A_eq m c 0) (after_in m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mIn t) fullShare ((dats m 0 c).before 0 t d))
    ∗ (∃ d, owns (c : Thread nD τ) (mOut1 t) fullShare ((dats m 0 c).before 1 t d))
    ∗ (∃ d, owns (c : Thread nD τ) (mOut2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The position's residue mod 4 says which case it is in; the invariant hands the body the
    accumulator (at anything at the very first point, at what the position before left afterwards) and takes it back
    at this position's contents; idle output windows come back untouched, live ones at the accumulator's columns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = accInv m c (t.val + 1) t.isLt from rfl, accInv_succ]
  have hN : t.val < 16 := lt_of_lt_of_eq t.isLt (show cfg0.N = 16 from N_0)
  rw [show (dats m 0 c).leavesExact 0 t = owns (c : Thread nD τ) (mIn t) fullShare ((dats m 0 c).after 0 t) from by
    unfold Dat.leavesExact; rw [live_in t], after_in]
  by_cases h0 : t.val % 4 = 0
  · -- reset
    have h3 : ¬t.val % 4 = 3 := by omega
    have c1 : isFirst (grid0.coords t) := (isFirst_iff t).mpr h0
    have c2 : ¬isLater (grid0.coords t) := fun h => (isLater_iff t).mp h h0
    have c3 : ¬isLast (grid0.coords t) := fun h => h3 ((isLast_iff t).mp h)
    rw [Dat.leavesExact_idle (dats m 0 c) 1 t (idle_out1 t h3) (noFlush_out1 t h3),
      Dat.leavesExact_idle (dats m 0 c) 2 t (idle_out2 t h3) (noFlush_out2 t h3)]
    rw [accAt_first m c t h0]
    have hpre : (dats m 0 c).Φ t.castSucc ⊢ iprop(iprop((∃ d, owns (c : Thread nD τ) mAcc fullShare d)) ∗ (∃ r, prngReg c r)) := by
      rw [inv_castSucc m c t]
      by_cases hz : t.val = 0
      · rw [accInv_zero m c _ _ hz, inv_eq]
      · rw [accInv_pos m c _ _ hz]
        iintro ⟨HS, Hg⟩
        isplitl [HS]
        · iexists _; iexact HS
        iexact Hg
    iintro ⟨HΦ, Ho, ⟨%d0, H0⟩, ⟨%d1, H1⟩, ⟨%d2, H2⟩⟩
    ihave HΦ' := hpre $$ HΦ
    icases HΦ' with ⟨HS, Hg⟩
    iapply ((runFirst c (grid0.coords t) _ _ _ _ _ _ _ _ c1 c2 c3 (iblk m c 0 t)).2 _ _ Set.univ _)
    isplitl [H0]; · iexact H0
    isplitl [H1]; · iexact H1
    isplitl [H2]; · iexact H2
    isplitl [HS]; · iexact HS
    iintro ⟨H0, H1, H2, ⟨%es, HS⟩⟩
    isplitl [HS Hg]
    · isplitl [HS]
      · unfold owns; iexists _; isplitr
        swap; · iexact HS
        ipureintro; exact read_first c _ _ _ _ _ _ _ _ _ c1 c2 c3 _ _
      iexact Hg
    isplitl [Ho]; · iexact Ho
    isplitl [H0]; · iexact H0
    isplitl [H1]; · iexists _; iexact H1
    iexists _; iexact H2
  · have hz : t.val ≠ 0 := fun h => h0 (by rw [h])
    have c1 : ¬isFirst (grid0.coords t) := fun h => h0 ((isFirst_iff t).mp h)
    have c2 : isLater (grid0.coords t) := (isLater_iff t).mpr h0
    rw [accAt_later m c t h0]
    rw [inv_castSucc m c t, accInv_pos m c _ _ hz]
    by_cases h3 : t.val % 4 = 3
    · -- emit
      have c3 : isLast (grid0.coords t) := (isLast_iff t).mpr h3
      rw [show (dats m 0 c).leavesExact 1 t = owns (c : Thread nD τ) (mOut1 t) fullShare ((dats m 0 c).after 1 t) from by
        unfold Dat.leavesExact; rw [live_out1 t h3], after_out1]
      rw [show (dats m 0 c).leavesExact 2 t = owns (c : Thread nD τ) (mOut2 t) fullShare ((dats m 0 c).after 2 t) from by
        unfold Dat.leavesExact; rw [live_out2 t h3], after_out2]
      rw [accAt_later m c t h0]
      iintro ⟨⟨HS, Hg⟩, Ho, ⟨%d0, H0⟩, ⟨%d1, H1⟩, ⟨%d2, H2⟩⟩
      iapply ((runLast c (grid0.coords t) _ _ _ _ _ _ _ _ c1 c2 c3 (iblk m c 0 t) _).2.2.2 Set.univ _)
      isplitl [H0]; · iexact H0
      isplitl [H1]; · iexists _; iexact H1
      isplitl [H2]; · iexists _; iexact H2
      isplitl [HS]; · iexact HS
      iintro ⟨H0, ⟨%e1, H1⟩, ⟨%e2, H2⟩, ⟨%es, HS⟩⟩
      isplitl [HS Hg]
      · isplitl [HS]
        · unfold owns; iexists _; isplitr
          swap; · iexact HS
          ipureintro; exact read_last_acc c _ _ _ _ _ _ _ _ _ c1 c2 c3 _ _ _
        iexact Hg
      isplitl [Ho]; · iexact Ho
      isplitl [H0]; · iexact H0
      isplitl [H1]
      · unfold owns; iexists _; isplitr
        swap; · iexact H1
        ipureintro; exact read_last_out1 c _ _ _ _ _ _ _ _ _ c1 c2 c3 _ _ _
      unfold owns; iexists _; isplitr
      swap; · iexact H2
      ipureintro; exact read_last_out2 c _ _ _ _ _ _ _ _ _ c1 c2 c3 _ _ _
    · -- accumulate
      have c3 : ¬isLast (grid0.coords t) := fun h => h3 ((isLast_iff t).mp h)
      rw [Dat.leavesExact_idle (dats m 0 c) 1 t (idle_out1 t h3) (noFlush_out1 t h3),
        Dat.leavesExact_idle (dats m 0 c) 2 t (idle_out2 t h3) (noFlush_out2 t h3)]
      iintro ⟨⟨HS, Hg⟩, Ho, ⟨%d0, H0⟩, ⟨%d1, H1⟩, ⟨%d2, H2⟩⟩
      iapply ((runMid c (grid0.coords t) _ _ _ _ _ _ _ _ c1 c2 c3 (iblk m c 0 t) _).2 _ _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact read_mid c _ _ _ _ _ _ _ _ _ c1 c2 c3 _ _ _
        iexact Hg
      isplitl [Ho]; · iexact Ho
      isplitl [H0]; · iexact H0
      isplitl [H1]; · iexists _; iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = accInv m c 0 (Nat.zero_le _) from rfl, accInv_zero m c 0 _ rfl]
  try exact Idealize.SL.BI.Entails.refl _

/-- After the last point the invariant gives the standing one back: the accumulator's contents are forgotten. -/
theorem inv_out (c : Dev nD) : (dats m 0 c).Φ (Fin.last cfg0.N) ⊢ Pipeline.ΦA spec0 c := by
  have ht : (Fin.last cfg0.N).val ≠ 0 := by rw [Fin.val_last]; have : cfg0.N = 16 := N_0; omega
  rw [show (dats m 0 c).Φ (Fin.last cfg0.N) = accInv m c (Fin.last cfg0.N).val (Nat.le_of_lt_succ (Fin.last cfg0.N).isLt) from rfl,
    accInv_pos m c _ _ ht, inv_eq]
  iintro ⟨HS, Hg⟩
  isplitl [HS]
  · iexists _; iexact HS
  iexact Hg

/-! ## The run and the frame -/

set_option backward.isDefEq.respectTransparency.types false in
/-- From any memory with zero counters every weakly fair execution of @main terminates, each array of the pipeline
    ending at what the proof data compute and every other buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Layout.lean ====
/-
  The host's layout operations around the region, read at the ideal instance.

  Before the region: the slice of channel 0, the reshape that drops the unit channel axis and the reshape to 102400 rows
  of 128 lanes are one function `compact` of the first argument; row `25 n + w`, lane `l` of it is entry `l mod 64` of
  row `2 w + l / 64` of channel 0 of sample `n`.

  After the region: the two broadcasts to a trailing unit axis, the concatenation along it, the reshape to 1024 × 50 and
  the addition of the counters are one function `tail` of the counters and the two 1024 × 25 outputs; column `2 w` of it
  is the counter plus the first output at `w`, column `2 w + 1` the counter plus the second output at `w`.
-/
import proofs.«163752_g34205119545578_cont_sun_m_983_21_alg».proof.Proof.Gen.KernelIdeal.Frame
import Idealize.ShloMosaic.Lib.ValueIdx
import Idealize.ShloMosaic.Lib.Pipeline.Value
import Idealize.ShloMosaic.PureOps.Ideal

noncomputable section
namespace Cert.KernelIdeal.LayoutValue
open Idealize.ShloMosaic Idealize.ShloMosaic.ValueIdx Idealize.ShloMosaic.TcCoe Cert.KernelIdeal Cert.KernelIdeal.Gen

/-- Channel 0 of the input laid out as 102400 rows of 128 lanes: the channel-0 slice, the unit channel axis dropped,
    and the remaining 4096 × 50 × 64 entries re-read in row-major order as 102400 × 128. -/
def compact (x : S4096x2x50x64.Idx → EReal) : S102400x128.Idx → EReal :=
  shapeCast S102400x128
    (shapeCast S4096x50x64
      (extractStridedSlice S4096x1x50x64 ![0, 0, 0, 0] x slices_S4096x2x50x64_S4096x1x50x64_0_0_0_0)
      shapeCasts_S4096x1x50x64_S4096x50x64)
    shapeCasts_S4096x50x64_S102400x128

/-- Row `25 n + w`, lane `l` of the compact array is entry `l mod 64` of row `2 w + l / 64` of channel 0 of sample `n`:
    both have row-major position `3200 n + 128 w + l` among the 4096 × 50 × 64 entries of channel 0. -/
theorem compact_apply (x : S4096x2x50x64.Idx → EReal) (n : Fin 4096) (w : Fin 25) (l : Fin 128) :
    compact x (ix2 (⟨25 * n.val + w.val, by omega⟩ : Fin 102400) l)
      = x (ix4 n (0 : Fin 2) (⟨2 * w.val + l.val / 64, by omega⟩ : Fin 50) (⟨l.val % 64, by omega⟩ : Fin 64)) := by
  unfold compact
  refine (shapeCast_apply _ shapeCasts_S4096x50x64_S102400x128 _
    (ix3 n (⟨2 * w.val + l.val / 64, by omega⟩ : Fin 50) (⟨l.val % 64, by omega⟩ : Fin 64)) ?_).trans ?_
  · rw [Shape.rowMajor_val_three, Shape.rowMajor_val_two]
    show (n.val * 50 + (2 * w.val + l.val / 64)) * 64 + l.val % 64 = (25 * n.val + w.val) * 128 + l.val
    omega
  refine (shapeCast_apply _ shapeCasts_S4096x1x50x64_S4096x50x64 _
    (ix4 n (0 : Fin 1) (⟨2 * w.val + l.val / 64, by omega⟩ : Fin 50) (⟨l.val % 64, by omega⟩ : Fin 64)) ?_).trans ?_
  · rw [Shape.rowMajor_val_four, Shape.rowMajor_val_three]
    show ((n.val * 1 + 0) * 50 + (2 * w.val + l.val / 64)) * 64 + l.val % 64
      = (n.val * 50 + (2 * w.val + l.val / 64)) * 64 + l.val % 64
    omega
  refine extractStridedSlice_apply _ x slices_S4096x2x50x64_S4096x1x50x64_0_0_0_0 _ _ ?_
  intro a
  match a with
  | ⟨0, _⟩ => show n.val = 0 + n.val; omega
  | ⟨1, _⟩ => show (0 : Nat) = 0 + 0; omega
  | ⟨2, _⟩ => show 2 * w.val + l.val / 64 = 0 + (2 * w.val + l.val / 64); omega
  | ⟨3, _⟩ => show l.val % 64 = 0 + l.val % 64; omega

/-- The host's last five operations as one function of the counters `seen` and the two 1024 × 25 outputs: each output
    gets a trailing unit axis, the two are joined along it into 1024 × 25 × 2, that is re-read in row-major order as
    1024 × 50, and the counters are added entrywise. -/
def tail (seen : S1024x50.Idx → EReal) (oe oo : S1024x25.Idx → EReal) : S1024x50.Idx → EReal :=
  addf (F := Ideal) (s := S1024x50) (φ := .f32) seen
    (shapeCast S1024x50
      (concatenate S1024x25x2 2
        [⟨S1024x25x1, broadcastInDim S1024x25x1 ![0, 1] bcast_S1024x25_S1024x25x1_0_1 oe⟩,
         ⟨S1024x25x1, broadcastInDim S1024x25x1 ![0, 1] bcast_S1024x25_S1024x25x1_0_1 oo⟩]
        concatenates_S1024x25x1_S1024x25x1_S1024x25x2_d2)
      shapeCasts_S1024x25x2_S1024x50)

/-- An output with a trailing unit axis added, read at `(b, w, 0)`, is the output at `(b, w)`. -/
theorem bcast_apply (o : S1024x25.Idx → EReal) (b : Fin 1024) (w : Fin 25) :
    broadcastInDim S1024x25x1 ![0, 1] bcast_S1024x25_S1024x25x1_0_1 o (ix3 b w (0 : Fin 1)) = o (ix2 b w) := by
  refine broadcastInDim_apply _ bcast_S1024x25_S1024x25x1_0_1 o _ (ix2 b w) ?_
  intro a
  match a with
  | ⟨0, _⟩ => show b.val = if (1024 : Nat) = 1 then 0 else b.val; exact (if_neg (by decide)).symm
  | ⟨1, _⟩ => show w.val = if (25 : Nat) = 1 then 0 else w.val; exact (if_neg (by decide)).symm

/-- Column `2 w` of the result is the counter plus the first output at `w`: position `50 b + 2 w` of the joined
    1024 × 25 × 2 array is its entry `(b, w, 0)`, which lies in the first piece. -/
theorem tail_even (seen : S1024x50.Idx → EReal) (oe oo : S1024x25.Idx → EReal) (b : Fin 1024) (w : Fin 25) :
    tail seen oe oo (ix2 b (⟨2 * w.val, by omega⟩ : Fin 50))
      = seen (ix2 b (⟨2 * w.val, by omega⟩ : Fin 50)) + oe (ix2 b w) := by
  unfold tail
  rw [addf_apply]
  refine congrArg (seen (ix2 b (⟨2 * w.val, by omega⟩ : Fin 50)) + ·) ?_
  refine (shapeCast_apply _ shapeCasts_S1024x25x2_S1024x50 _ (ix3 b w (0 : Fin 2)) ?_).trans ?_
  · rw [Shape.rowMajor_val_three, Shape.rowMajor_val_two]
    show (b.val * 25 + w.val) * 2 + 0 = b.val * 50 + 2 * w.val
    omega
  refine (concatenate_pair_apply_left (t := S1024x25x2) (s₁ := S1024x25x1) (s₂ := S1024x25x1) (2 : Fin 3) _ _ concatenates_S1024x25x1_S1024x25x1_S1024x25x2_d2 _ rfl
    (ix3 b w (0 : Fin 1)) ?_).trans (bcast_apply oe b w)
  intro a
  match a with
  | ⟨0, _⟩ => rfl
  | ⟨1, _⟩ => rfl
  | ⟨2, _⟩ => rfl

/-- Column `2 w + 1` of the result is the counter plus the second output at `w`: position `50 b + 2 w + 1` of the
    joined array is its entry `(b, w, 1)`, which is entry `(b, w, 0)` of the second piece. -/
theorem tail_odd (seen : S1024x50.Idx → EReal) (oe oo : S1024x25.Idx → EReal) (b : Fin 1024) (w : Fin 25) :
    tail seen oe oo (ix2 b (⟨2 * w.val + 1, by omega⟩ : Fin 50))
      = seen (ix2 b (⟨2 * w.val + 1, by omega⟩ : Fin 50)) + oo (ix2 b w) := by
  unfold tail
  rw [addf_apply]
  refine congrArg (seen (ix2 b (⟨2 * w.val + 1, by omega⟩ : Fin 50)) + ·) ?_
  refine (shapeCast_apply _ shapeCasts_S1024x25x2_S1024x50 _ (ix3 b w (1 : Fin 2)) ?_).trans ?_
  · rw [Shape.rowMajor_val_three, Shape.rowMajor_val_two]
    show (b.val * 25 + w.val) * 2 + 1 = b.val * 50 + (2 * w.val + 1)
    omega
  refine (concatenate_pair_apply_right (t := S1024x25x2) (s₁ := S1024x25x1) (s₂ := S1024x25x1) (2 : Fin 3) _ _ concatenates_S1024x25x1_S1024x25x1_S1024x25x2_d2 _ rfl rfl
    (ix3 b w (0 : Fin 1)) ?_ ?_).trans (bcast_apply oo b w)
  · intro a
    match a with
    | ⟨0, _⟩ => exact fun _ => rfl
    | ⟨1, _⟩ => exact fun _ => rfl
    | ⟨2, _⟩ => exact fun hne => absurd (Fin.ext rfl) hne
  · show (0 : Nat) + 1 = 1
    rfl

/-- When the region is entered, the array its first window reads holds the compact layout of channel 0 of the first
    argument as launched: the three host operations before the region compute it from that argument, which none of them
    writes. -/
theorem V_main_v2 (m : (ℓ : Loc nD τ sig) → Buf (Elt Ideal) ℓ) (c : Dev nD) :
    (V m c main_v2 : S102400x128.Idx → EReal) = compact (m ((c : Thread nD τ).loc main_arg0)) := by
  show StableHlo.after hostOps0 (fun b => m (c, b)) (Proc.devRef .tc main_v2) = _
  after_results
  rfl

/-- The program's result: the five host operations after the region applied to the second argument as launched and to
    the contents the region leaves in its two output arrays. -/
theorem result_eq (m : (ℓ : Loc nD τ sig) → Buf (Elt Ideal) ℓ)
    (dats : (p : Fin 1) → (c : Dev nD) → Pipeline.Dat τ (Elt Ideal) Unit ℕ (UR sig nD τ) ℕ (cfgs p) c) (c : Dev nD) :
    Pipeline.afterTail₀ cfgs dats 0 (V0 m) [hostOps1] c main_v8
      = tail (m ((c : Thread nD τ).loc main_arg1)) ((dats 0 c).arrAt 1 cfg0.N) ((dats 0 c).arrAt 2 cfg0.N) := by
  unfold Pipeline.afterTail₀
  show StableHlo.after hostOps1 _ (Proc.devRef .tc main_v8) = _
  after_results
  have h1 : Pipeline.withArrays spec0 c (V0 m c) (fun w => (dats 0 c).arrAt w cfg0.N) (Proc.devRef .tc main_arg1)
      = m ((c : Thread nD τ).loc main_arg1) :=
    (Pipeline.withArrays_of_ne spec0 c (V0 m c) _ main_arg1
      (by exact (by decide : ∀ w, Pipeline.arrRef spec0 w ≠ main_arg1))).trans (V_main_arg1 m c)
  have h3 : Pipeline.withArrays spec0 c (V0 m c) (fun w => (dats 0 c).arrAt w cfg0.N) (Proc.devRef .tc main_v3_0)
      = (dats 0 c).arrAt 1 cfg0.N :=
    Pipeline.withArrays_arr spec0 launch0.win.arr_inj c _ _ 1
  have h4 : Pipeline.withArrays spec0 c (V0 m c) (fun w => (dats 0 c).arrAt w cfg0.N) (Proc.devRef .tc main_v3_1)
      = (dats 0 c).arrAt 2 cfg0.N :=
    Pipeline.withArrays_arr spec0 launch0.win.arr_inj c _ _ 2
  show tail (Pipeline.withArrays spec0 c (V0 m c) (fun w => (dats 0 c).arrAt w cfg0.N) (Proc.devRef .tc main_arg1))
      (Pipeline.withArrays spec0 c (V0 m c) (fun w => (dats 0 c).arrAt w cfg0.N) (Proc.devRef .tc main_v3_0))
      (Pipeline.withArrays spec0 c (V0 m c) (fun w => (dats 0 c).arrAt w cfg0.N) (Proc.devRef .tc main_v3_1)) = _
  rw [h1, h3, h4]

end Cert.KernelIdeal.LayoutValue
end
-- ==== Proof.Bridge.Block.lean ====
/-
  The input blocks the body loads, read at an index of the argument `x`.

  The pipeline's input is the compact array (row `25 n + w` holds rows `2w` and `2w + 1` of channel 0 of sample
  `n`), cut into 16 blocks of 6400 rows. Grid position `4 r + q` loads block `r + 4 q`, that is, the 256 samples
  `256 r + 1024 q + s`, `s < 256`: for a fixed `r` the four positions `q = 0 … 3` visit the four samples of each
  slot `256 r + s`.
-/
import proofs.«163752_g34205119545578_cont_sun_m_983_21_alg».proof.Proof.BodyI.Data
import proofs.«163752_g34205119545578_cont_sun_m_983_21_alg».proof.Proof.Layout
import Idealize.ShloMosaic.Lib.ValueIdx
import Idealize.ShloMosaic.Lib.Pipeline.Value

set_option maxRecDepth 16384

noncomputable section

open scoped BigOperators

namespace Cert.KernelIdeal.Bridge

open Cert.KernelIdeal Cert.KernelIdeal.Gen Cert.KernelIdeal.Hand Cert.KernelIdeal.LayoutValue
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The input window's block index, decided over the grid: position `t` loads block `t / 4 + 4 (t % 4)`. -/
theorem idx_in : ∀ t : Fin cfg0.N, win0_0.index t (0 : Fin 2) = t.val / 4 + 4 * (t.val % 4) ∧ win0_0.index t (1 : Fin 2) = 0 :=
  (by decide +kernel : ∀ t : Fin grid0.N, win0_0.index t (0 : Fin 2) = t.val / 4 + 4 * (t.val % 4) ∧ win0_0.index t (1 : Fin 2) = 0)

/-- A block of the input window is the compact array read through the block's rectangle. -/
theorem iblk_apply (c : Dev nD) (t : Fin cfg0.N) (y : S6400x128.Idx) :
    iblk m c 0 t y = compact (m ((c : Thread nD τ).loc main_arg0)) (((cfg0.win 0).blk t).view.emb y) := by
  show (V m c main_v2 : S102400x128.Idx → EReal) (((cfg0.win 0).blk t).view.emb y) = _
  rw [V_main_v2]

/-- Row `25 s + w`, lane `l` of the block loaded at position `4 r + q` is row `25 (256 r + 1024 q + s) + w`, lane `l`
    of the compact array. -/
theorem blockAt_apply (c : Dev nD) (r q : Fin 4) (s : Fin 256) (w : Fin 25) (l : Fin 128) :
    blockAt (F := Ideal) m c (4 * r.val + q.val) (ix2 (⟨25 * s.val + w.val, by omega⟩ : Fin 6400) l)
      = compact (m ((c : Thread nD τ).loc main_arg0))
          (ix2 (⟨25 * (256 * r.val + 1024 * q.val + s.val) + w.val, by omega⟩ : Fin 102400) l) := by
  have hN : cfg0.N = 16 := N_0
  have ht : 4 * r.val + q.val < cfg0.N := by omega
  have e : blockAt (F := Ideal) m c (4 * r.val + q.val) = iblk m c 0 ⟨4 * r.val + q.val, ht⟩ := blockAt_fin m c ⟨4 * r.val + q.val, ht⟩
  rw [e, iblk_apply]
  obtain ⟨e0, e1⟩ := idx_in ⟨4 * r.val + q.val, ht⟩
  refine congrArg _ ?_
  funext a; apply Fin.ext
  match a with
  | ⟨0, _⟩ =>
    show win0_0.index ⟨4 * r.val + q.val, ht⟩ (0 : Fin 2) * 6400 + 1 * (25 * s.val + w.val) = 25 * (256 * r.val + 1024 * q.val + s.val) + w.val
    rw [e0]; dsimp only; omega
  | ⟨1, _⟩ =>
    show win0_0.index ⟨4 * r.val + q.val, ht⟩ (1 : Fin 2) * 128 + 1 * l.val = l.val
    rw [e1]; omega

end Cert.KernelIdeal.Bridge

end
-- ==== Proof.PaySel.lean ====
/-
  The 0/1 selector matrix of the kernel's lane sums, word by word.

  The kernel multiplies each 128-lane row of absolute values by a 128 × 128 matrix whose entry at row `l`, column `c`
  is one when `c = 64 · ⌊l / 64⌋` and zero otherwise, so column 0 of the product sums lanes 0 … 63 and column 64 sums
  lanes 64 … 127. The floor division is spelt in signed 32-bit integer arithmetic: the quotient rounded toward zero,
  lowered by one when the signs of dividend and divisor differ and the remainder is not zero. This module reads that
  spelling on the words of the coordinates `l, c < 128`, where it is the quotient of naturals.
-/
import Idealize.ShloMosaic.PureOps.Ideal

noncomputable section

namespace Cert.KernelIdeal.PayValue

open Idealize.ShloMosaic

/-- The floor of a signed 32-bit word divided by 64: the quotient rounded toward zero, less one when the word's sign
    differs from the divisor's (which is positive) and the remainder is not zero. -/
def floorWord (a : BitVec 32) : BitVec 32 :=
  Scalar.select
    (IntOp.andi
      (IntOp.cmpi .ne
        (IntOp.subi ((IntOp.cmpi .sgt a 0#32).setWidth 32) ((IntOp.cmpi .slt a 0#32).setWidth 32))
        (Scalar.subi (Scalar.extui (Scalar.cmpi .sgt 64#32 0#32)) (Scalar.extui (Scalar.cmpi .slt 64#32 0#32))))
      (IntOp.cmpi .ne (IntOp.remsi .vector a 64#32) 0#32))
    (IntOp.subi (IntOp.divsi .vector a 64#32) 1#32)
    (IntOp.divsi .vector a 64#32)

/-- The selector's bit at row word `a` and column word `c`: whether `c = 64 · ⌊a / 64⌋`. -/
def selBit (a c : BitVec 32) : BitVec 1 := IntOp.cmpi .eq c (IntOp.muli (floorWord a) 64#32)

/-- On the word of a row coordinate `l < 128` the signed floor division is the natural quotient `l / 64` (a finite
    check over the 128 coordinates; the dividend is never negative and the divisor never zero). -/
theorem floorWord_ofNat : ∀ l : Fin 128, floorWord (BitVec.ofNat 32 l.val) = BitVec.ofNat 32 (l.val / 64) := by
  decide

/-- The selector's bit at coordinates `l, c < 128` is set exactly when `c = 64 · (l / 64)`: no product or comparison
    wraps, all the numbers being below `2 ^ 32`. -/
theorem selBit_ofNat (l c : Fin 128) :
    selBit (BitVec.ofNat 32 l.val) (BitVec.ofNat 32 c.val) = if c.val = 64 * (l.val / 64) then 1#1 else 0#1 := by
  unfold selBit
  rw [floorWord_ofNat]
  have h1 : IntOp.muli (BitVec.ofNat 32 (l.val / 64)) 64#32 = BitVec.ofNat 32 (64 * (l.val / 64)) := by
    unfold IntOp.muli
    apply BitVec.eq_of_toNat_eq
    simp [BitVec.toNat_mul, BitVec.toNat_ofNat]
    omega
  rw [h1]
  unfold IntOp.cmpi
  have hl := l.isLt
  have hc := c.isLt
  by_cases h : c.val = 64 * (l.val / 64)
  · rw [if_pos h, h]; simp
  · rw [if_neg h]
    have : (BitVec.ofNat 32 c.val == BitVec.ofNat 32 (64 * (l.val / 64))) = false := by
      rw [beq_eq_false_iff_ne]
      intro e
      have := congrArg BitVec.toNat e
      simp [BitVec.toNat_ofNat] at this
      omega
    simp [this]

/-- A bit widened to 32 bits and read as a signed integer is the extended real one when set and zero otherwise. -/
theorem sitofp_bit (b : Bool) :
    (FloatOps.sitofp (F := Ideal) .f32 ((BitVec.ofBool b).setWidth 32) : EReal) = if b then 1 else 0 := by
  cases b
  · show (((0#32).toInt : ℝ) : EReal) = 0
    simp
  · show (((1#32).toInt : ℝ) : EReal) = 1
    have : (1#32).toInt = 1 := by decide
    rw [this]; simp

end Cert.KernelIdeal.PayValue

end
-- ==== Proof.PayDot.lean ====
/-
  The kernel's matrix product at an index.

  The body multiplies the 6400 × 128 block of absolute values by a 128 × 128 matrix `S` into a zero accumulator and
  compares the product with zero. At the extended reals entry (r, c) of the product is the exact sum over the 128 lanes
  `l` of `|x (r, l)| · S (l, c)`, and the comparison, widened and converted, is one when that sum is zero and zero
  otherwise. This module proves that reading for an arbitrary right factor `S`.
-/
import proofs.«163752_g34205119545578_cont_sun_m_983_21_alg».proof.Proof.Gen.KernelIdeal.Skeleton
import proofs.«163752_g34205119545578_cont_sun_m_983_21_alg».proof.Proof.PaySel
import Idealize.ShloMosaic.Lib.ValueIdx
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

/-- In the product's entry (r, c), the left factor is read at (r, l) for the contracted lane `l`. -/
theorem lhsIdx_eq (r : Fin 6400) (c : Fin 128) (l : Fin 128) :
    dot_S6400x128_S128x128_S6400x128_1_0_0_1_n_n.lhsIdx (ix2 r c)
      ((contrEquiv1 dot_S6400x128_S128x128_S6400x128_1_0_0_1_n_n 128 rfl rfl).symm l) = ix2 r l := by
  have c2 := contrEquiv1_symm_val dot_S6400x128_S128x128_S6400x128_1_0_0_1_n_n 128 rfl rfl l
  funext ax; apply Fin.ext
  match ax with
  | ⟨0, _⟩ => simp [DotDims.lhsIdx, dot_S6400x128_S128x128_S6400x128_1_0_0_1_n_n]; rfl
  | ⟨1, _⟩ => simp [DotDims.lhsIdx, dot_S6400x128_S128x128_S6400x128_1_0_0_1_n_n]; exact c2

/-- In the product's entry (r, c), the right factor is read at (l, c) for the contracted lane `l`. -/
theorem rhsIdx_eq (r : Fin 6400) (c : Fin 128) (l : Fin 128) :
    dot_S6400x128_S128x128_S6400x128_1_0_0_1_n_n.rhsIdx (ix2 r c)
      ((contrEquiv1 dot_S6400x128_S128x128_S6400x128_1_0_0_1_n_n 128 rfl rfl).symm l) = ix2 l c := by
  have c2 := contrEquiv1_symm_val dot_S6400x128_S128x128_S6400x128_1_0_0_1_n_n 128 rfl rfl l
  funext ax; apply Fin.ext
  match ax with
  | ⟨0, _⟩ => simp [DotDims.rhsIdx, dot_S6400x128_S128x128_S6400x128_1_0_0_1_n_n]; exact c2
  | ⟨1, _⟩ => simp [DotDims.rhsIdx, dot_S6400x128_S128x128_S6400x128_1_0_0_1_n_n]; rfl

/-- The product of the block's absolute values by a matrix `S`, compared with zero, at row `r` and column `c`:
    one when `∑ l, |x (r, l)| · S (l, c)` is zero, and zero otherwise. (The cast of the block to its own shape is the
    identity; the accumulator is the zero array; `|v|` is `max v (-v)`.) -/
theorem pay5_core (x0 : FVec Ideal S6400x128 .f32) (S : FVec Ideal S128x128 .f32) (r : Fin 6400) (c : Fin 128)
    (hc : S6400x128.ShapeCasts S6400x128) (hlt : 1 < 32) :
    (sitofp .f32 (extui 32 (cmpf .oeq
        (matmul dot_S6400x128_S128x128_S6400x128_1_0_0_1_n_n none (absf (shapeCast S6400x128 x0 hc)) S
          (constant S6400x128 .f32 0x00000000#32))
        (broadcast S6400x128 (FloatOps.ofBits .f32 0x00000000#32))) hlt) : FVec Ideal S6400x128 .f32) (ix2 r c)
      = if (∑ l : Fin 128, max (x0 (ix2 r l)) (-(x0 (ix2 r l))) * S (ix2 l c)) = 0 then 1 else 0 := by
  rw [shapeCast_self]
  show FloatOps.sitofp (F := Ideal) .f32 ((Ideal.cmp .oeq
      (FloatOps.matmul dot_S6400x128_S128x128_S6400x128_1_0_0_1_n_n none (absf x0) S (constant S6400x128 .f32 0x00000000#32) (ix2 r c))
      (Ideal.ofBits .f32 0x00000000#32)).setWidth 32) = _
  rw [Ideal.matmul_constant_zero_apply, Ideal.ofBits_zero_f32,
    ← Equiv.sum_comp (contrEquiv1 dot_S6400x128_S128x128_S6400x128_1_0_0_1_n_n 128 rfl rfl).symm]
  simp only [lhsIdx_eq, rhsIdx_eq]
  show FloatOps.sitofp (F := Ideal) .f32 ((BitVec.ofBool (decide (_ = (0 : EReal)))).setWidth 32) = _
  rw [sitofp_bit]
  simp only [decide_eq_true_eq]
  rfl

end Cert.KernelIdeal.PayValue

end
-- ==== Proof.PayLayout.lean ====
/-
  The body's layout payloads at an index.

  The accumulating store adds the new block to the scratch block entry by entry. At the last reduction step the
  6400 × 128 scratch block is viewed as 256 samples × 25 compact rows × 128 lanes (compact row `R = 25 c + w` of the
  block is row `w` of sample `c`), lane 0 or lane 64 is sliced out, and the unit lane axis is dropped: entry (c, w)
  of the stored 256 × 25 block is the scratch block at row `25 c + w`, lane 0 (respectively 64). A cast of a block to
  its own shape is the identity.
-/
import proofs.«163752_g34205119545578_cont_sun_m_983_21_alg».proof.Proof.Gen.KernelIdeal.Skeleton
import Idealize.ShloMosaic.Lib.ValueIdx
import Idealize.ShloMosaic.Lib.Pipeline.Value

noncomputable section

namespace Cert.KernelIdeal.PayValue

open Idealize.ShloMosaic Idealize.ShloMosaic.ValueIdx Cert.KernelIdeal Cert.KernelIdeal.Gen

/-- The value stored at the first reduction step is the computed block itself. -/
theorem pay6_eq (x0 : Vec Ideal S6400x128 .f32) : k0_pay6 (F := Ideal) x0 = k0_pay5 (F := Ideal) x0 := by
  unfold k0_pay6
  exact shapeCast_self _ _

/-- The value stored at a later reduction step is, entry by entry, the scratch block plus the computed block. -/
theorem pay1_apply (v38 : FVec Ideal S6400x128 .f32) (v48 : Vec Ideal S6400x128 .f32) (i : S6400x128.Idx) :
    k0_pay1 (F := Ideal) v38 v48 i = v48 i + v38 i := by
  unfold k0_pay1
  rw [shapeCast_self]
  rfl

/-- The 256 × 25 block cut from lane `o` of the scratch block, at sample `c` and compact row `w`: the scratch block
    at row `25 c + w`, lane `o`. (Row-major positions: `(25 c + w) · 128 + o` in both the flat and the three-axis
    view, and `25 c + w` with or without the unit lane axis.) -/
theorem lane_apply (v : Vec Ideal S6400x128 .f32) (o : Fin 128) (off : Fin 3 → Nat) (h0 : off 0 = 0) (h1 : off 1 = 0)
    (h2 : off 2 = o.val) (hs : S256x25x128.Slices off S256x25x1) (hc1 : S6400x128.ShapeCasts S256x25x128)
    (hc2 : S256x25x1.ShapeCasts S256x25) (c : Fin 256) (w : Fin 25) :
    (shapeCast S256x25 (extractStridedSlice S256x25x1 off (shapeCast S256x25x128 v hc1) hs) hc2 : FVec Ideal S256x25 .f32)
        (ix2 c w)
      = v (ix2 (⟨25 * c.val + w.val, by omega⟩ : Fin 6400) o) := by
  refine (shapeCast_apply _ _ (ix2 c w) (ix3 c w (0 : Fin 1)) ?_).trans ?_
  · rw [Shape.rowMajor_val_three, Shape.rowMajor_val_two]
    show (c.val * 25 + w.val) * 1 + 0 = c.val * 25 + w.val
    omega
  refine (extractStridedSlice_apply _ _ _ (ix3 c w (0 : Fin 1)) (ix3 c w o) ?_).trans ?_
  · intro a
    match a with
    | ⟨0, _⟩ => show c.val = off 0 + c.val; omega
    | ⟨1, _⟩ => show w.val = off 1 + w.val; omega
    | ⟨2, _⟩ => show o.val = off 2 + 0; omega
  refine shapeCast_apply _ _ (ix3 c w o) (ix2 (⟨25 * c.val + w.val, by omega⟩ : Fin 6400) o) ?_
  rw [Shape.rowMajor_val_three, Shape.rowMajor_val_two]
  show (25 * c.val + w.val) * 128 + o.val = (c.val * 25 + w.val) * 128 + o.val
  omega

/-- The first output block at sample `c`, compact row `w`: the scratch block at row `25 c + w`, lane 0. -/
theorem pay3_apply (v : Vec Ideal S6400x128 .f32) (c : Fin 256) (w : Fin 25) :
    k0_pay3 (F := Ideal) v (ix2 c w) = v (ix2 (⟨25 * c.val + w.val, by omega⟩ : Fin 6400) (0 : Fin 128)) := by
  unfold k0_pay3 k0_pay2
  exact lane_apply v (0 : Fin 128) ![0, 0, 0] rfl rfl rfl _ _ _ c w

/-- The second output block at sample `c`, compact row `w`: the scratch block at row `25 c + w`, lane 64. -/
theorem pay4_apply (v : Vec Ideal S6400x128 .f32) (c : Fin 256) (w : Fin 25) :
    k0_pay4 (F := Ideal) v (ix2 c w) = v (ix2 (⟨25 * c.val + w.val, by omega⟩ : Fin 6400) (64 : Fin 128)) := by
  unfold k0_pay4 k0_pay2
  exact lane_apply v (64 : Fin 128) ![0, 0, 64] rfl rfl rfl _ _ _ c w

end Cert.KernelIdeal.PayValue

end
-- ==== Proof.Payload.lean ====
/-
  The kernel body's arithmetic at an index, at the extended reals.

  The computed 6400 × 128 block holds, in column 0 of compact row `r`, one when the first 64 lanes of that row are all
  zero — the sum of their absolute values vanishes — and zero otherwise; column 64 holds the same for the last 64
  lanes. The selector matrix entry at (l, c) is one exactly when `c = 64 · (l / 64)`, so in column 0 the lanes below
  64 are kept and the others multiplied by zero, and in column 64 the other way round; a product with zero vanishes
  also at an infinite factor. The layout payloads (the accumulating sum, the two stored lane columns) are read in
  the module of the layout operations.
-/
import proofs.«163752_g34205119545578_cont_sun_m_983_21_alg».proof.Proof.PaySel
import proofs.«163752_g34205119545578_cont_sun_m_983_21_alg».proof.Proof.PayDot
import proofs.«163752_g34205119545578_cont_sun_m_983_21_alg».proof.Proof.PayLayout

noncomputable section

open scoped BigOperators

namespace Cert.KernelIdeal.PayValue

open Idealize.ShloMosaic Idealize.ShloMosaic.ValueIdx Cert.KernelIdeal Cert.KernelIdeal.Gen

/-- Lane `k` of the first half of a 128-lane row. -/
def lo (k : Fin 64) : Fin 128 := ⟨k.val, by omega⟩
/-- Lane `64 + k`, in the second half of a 128-lane row. -/
def hi (k : Fin 64) : Fin 128 := ⟨64 + k.val, by omega⟩

/-- A sum over the 128 lanes is the sum over the first 64 plus the sum over the last 64. -/
theorem sum_halves (f : Fin 128 → EReal) : ∑ l : Fin 128, f l = ∑ k : Fin 64, f (lo k) + ∑ k : Fin 64, f (hi k) :=
  Fin.sum_univ_add (a := 64) (b := 64) f

/-- The computed block at row `r`, column `c`: one when the sum over the lanes `l` of `|x (r, l)|` times the
    selector entry — one if `c = 64 · (l / 64)`, else zero — vanishes, and zero otherwise. The selector matrix is
    built from the row and column coordinates of a 128 × 128 array by the word-level floor division. -/
theorem pay5_col (x0 : Vec Ideal S6400x128 .f32) (r : Fin 6400) (c : Fin 128) :
    k0_pay5 (F := Ideal) x0 (ix2 r c)
      = if (∑ l : Fin 128, max (x0 (ix2 r l)) (-(x0 (ix2 r l))) * (if c.val = 64 * (l.val / 64) then (1 : EReal) else 0)) = 0
          then 1 else 0 := by
  unfold k0_pay5
  refine (pay5_core x0 _ r c _ _).trans ?_
  refine congrArg (fun s : EReal => if s = 0 then (1 : EReal) else 0) ?_
  refine Finset.sum_congr rfl fun l _ => congrArg (fun s : EReal => max (x0 (ix2 r l)) (-(x0 (ix2 r l))) * s) ?_
  show FloatOps.sitofp (F := Ideal) .f32
      ((selBit (iota .tc S128x128 32 [0] iota_S128x128_d0_w32 (ix2 l c))
        (iota .tc S128x128 32 [1] iota_S128x128_d1_w32 (ix2 l c))).setWidth 32) = _
  rw [iota_single_apply, iota_single_apply]
  show FloatOps.sitofp (F := Ideal) .f32
      ((selBit (BitVec.ofNat 32 l.val) (BitVec.ofNat 32 c.val)).setWidth 32) = _
  rw [selBit_ofNat]
  by_cases h : c.val = 64 * (l.val / 64)
  · rw [if_pos h, if_pos h]; exact sitofp_bit true
  · rw [if_neg h, if_neg h]; exact sitofp_bit false

/-- Column 0 of the computed block at row `r`: one when the absolute values of lanes 0 … 63 sum to zero, else zero. -/
theorem pay5_lo (x0 : Vec Ideal S6400x128 .f32) (r : Fin 6400) :
    k0_pay5 (F := Ideal) x0 (ix2 r (0 : Fin 128))
      = if (∑ k : Fin 64, max (x0 (ix2 r (lo k))) (-(x0 (ix2 r (lo k))))) = 0 then 1 else 0 := by
  refine (pay5_col x0 r 0).trans (congrArg (fun s : EReal => if s = 0 then (1 : EReal) else 0) ?_)
  rw [sum_halves]
  have h1 : ∀ k : Fin 64, (if (0 : Fin 128).val = 64 * ((lo k).val / 64) then (1 : EReal) else 0) = 1 := fun k =>
    if_pos (by show 0 = 64 * (k.val / 64); omega)
  have h2 : ∀ k : Fin 64, (if (0 : Fin 128).val = 64 * ((hi k).val / 64) then (1 : EReal) else 0) = 0 := fun k =>
    if_neg (by show ¬ 0 = 64 * ((64 + k.val) / 64); omega)
  simp only [h1, h2, mul_one, mul_zero, Finset.sum_const_zero, add_zero]

/-- Column 64 of the computed block at row `r`: one when the absolute values of lanes 64 … 127 sum to zero, else
    zero. -/
theorem pay5_hi (x0 : Vec Ideal S6400x128 .f32) (r : Fin 6400) :
    k0_pay5 (F := Ideal) x0 (ix2 r (64 : Fin 128))
      = if (∑ k : Fin 64, max (x0 (ix2 r (hi k))) (-(x0 (ix2 r (hi k))))) = 0 then 1 else 0 := by
  refine (pay5_col x0 r 64).trans (congrArg (fun s : EReal => if s = 0 then (1 : EReal) else 0) ?_)
  rw [sum_halves]
  have h1 : ∀ k : Fin 64, (if (64 : Fin 128).val = 64 * ((lo k).val / 64) then (1 : EReal) else 0) = 0 := fun k =>
    if_neg (by show ¬ 64 = 64 * (k.val / 64); omega)
  have h2 : ∀ k : Fin 64, (if (64 : Fin 128).val = 64 * ((hi k).val / 64) then (1 : EReal) else 0) = 1 := fun k =>
    if_pos (by show 64 = 64 * ((64 + k.val) / 64); omega)
  simp only [h1, h2, mul_one, mul_zero, Finset.sum_const_zero, zero_add]

end Cert.KernelIdeal.PayValue

end
-- ==== Proof.Spec.lean ====
/-
  The specification both programs are compared with, as one function of the two argument arrays.

  The input `x` holds 4096 samples, each of 2 channels of 50 rows of 64 entries; `seen` is a 1024 × 50 array of
  counters. Sample `n` falls into slot `n mod 1024`, so slot `b` receives the four samples `b`, `b + 1024`,
  `b + 2048`, `b + 3072`. Row `h` of a sample counts when it is all zeros in channel 0, that is, when the sum of the
  absolute values of its 64 entries is zero (a sum of non-negative extended reals vanishes only if every term does).
  The result adds to `seen (b, h)` the number of counting rows `h` among the four samples of slot `b`.
-/
import Idealize.ShloMosaic.PureOps.Ideal
import Idealize.ShloMosaic.Lib.ValueIdx

noncomputable section

open scoped BigOperators

namespace Cert.Spec

open Idealize.ShloMosaic Idealize.ShloMosaic.ValueIdx

/-- The input `x`: 4096 samples, 2 channels, 50 rows of 64 entries. -/
abbrev SX : Shape := ⟨4, ![4096, 2, 50, 64]⟩
/-- The counters `seen`: 1024 slots by 50 rows. -/
abbrev SB : Shape := ⟨2, ![1024, 50]⟩

/-- The `q`-th of the four samples that fall into slot `b`: sample `b + 1024 q`. -/
def sample (b : Fin 1024) (q : Fin 4) : Fin 4096 := ⟨b.val + 1024 * q.val, by omega⟩

/-- `1` when row `h` of channel 0 of sample `n` is all zeros (the sum of the absolute values `max v (-v)` of its
    64 entries is `0`), and `0` otherwise. -/
def rowZero (x : SX.Idx → EReal) (n : Fin 4096) (h : Fin 50) : EReal :=
  if (∑ k : Fin 64, max (x (ix4 n (0 : Fin 2) h k)) (-(x (ix4 n (0 : Fin 2) h k)))) = 0 then 1 else 0

/-- The result at slot `b`, row `h`: the counter plus the number of all-zero rows `h` among the slot's four samples. -/
def Gat (x : SX.Idx → EReal) (seen : SB.Idx → EReal) (b : Fin 1024) (h : Fin 50) : EReal :=
  seen (ix2 b h) + ∑ q : Fin 4, rowZero x (sample b q) h

/-- The result array. -/
def G (x : SX.Idx → EReal) (seen : SB.Idx → EReal) : SB.Idx → EReal := fun i => Gat x seen (i 0) (i 1)

theorem G_apply (x : SX.Idx → EReal) (seen : SB.Idx → EReal) (b : Fin 1024) (h : Fin 50) :
    G x seen (ix2 b h) = Gat x seen b h := rfl

end Cert.Spec

end
-- ==== Proof.Bridge.Acc.lean ====
/-
  The accumulator at the last of the four positions of a group, and a row indicator of a loaded block read as the
  specification's `rowZero`.

  For a fixed first coordinate `r` the positions `4 r, …, 4 r + 3` reset the accumulator to the row indicators of
  the first block and then add those of the next three: entry by entry it ends as the sum of the four indicators.
  An indicator of the block loaded at position `4 r + q`, at compact row `25 s + w` and column `0` (or `64`), says
  whether row `2 w` (or `2 w + 1`) of channel 0 of sample `256 r + 1024 q + s` is all zeros: the 64 lanes of the
  left (right) half of the compact row are exactly that row's 64 entries.
-/
import proofs.«163752_g34205119545578_cont_sun_m_983_21_alg».proof.Proof.Bridge.Block
import proofs.«163752_g34205119545578_cont_sun_m_983_21_alg».proof.Proof.Payload
import proofs.«163752_g34205119545578_cont_sun_m_983_21_alg».proof.Proof.Spec

set_option maxRecDepth 16384

noncomputable section

open scoped BigOperators

namespace Cert.KernelIdeal.Bridge

open Cert.KernelIdeal Cert.KernelIdeal.Gen Cert.KernelIdeal.Hand Cert.KernelIdeal.LayoutValue
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

open Cert.KernelIdeal.PayValue Cert.Spec

/-- Entry by entry the accumulator after position `4 r + 3` is the sum of the four blocks' row indicators. -/
theorem accAt_last_apply (c : Dev nD) (r : Fin 4) (i : S6400x128.Idx) :
    accAt (F := Ideal) m c (4 * r.val + 3) i
      = ((k0_pay5 (F := Ideal) (blockAt m c (4 * r.val)) i + k0_pay5 (F := Ideal) (blockAt m c (4 * r.val + 1)) i)
          + k0_pay5 (F := Ideal) (blockAt m c (4 * r.val + 2)) i) + k0_pay5 (F := Ideal) (blockAt m c (4 * r.val + 3)) i := by
  have s3 : accAt (F := Ideal) m c (4 * r.val + 3) = k0_pay1 (k0_pay5 (blockAt m c (4 * r.val + 3))) (accAt m c (4 * r.val + 2)) :=
    accAt_step m c (4 * r.val + 2) (by omega)
  have s2 : accAt (F := Ideal) m c (4 * r.val + 2) = k0_pay1 (k0_pay5 (blockAt m c (4 * r.val + 2))) (accAt m c (4 * r.val + 1)) :=
    accAt_step m c (4 * r.val + 1) (by omega)
  have s1 : accAt (F := Ideal) m c (4 * r.val + 1) = k0_pay1 (k0_pay5 (blockAt m c (4 * r.val + 1))) (accAt m c (4 * r.val)) :=
    accAt_step m c (4 * r.val) (by omega)
  have s0 : accAt (F := Ideal) m c (4 * r.val) = k0_pay6 (blockAt m c (4 * r.val)) := accAt_reset m c _ (by omega)
  rw [s3, pay1_apply, s2, pay1_apply, s1, pay1_apply, s0, pay6_eq]

/-- Sample `256 r + 1024 q + s` is the `q`-th sample of slot `256 r + s`. -/
theorem sample_eq (r q : Fin 4) (s : Fin 256) :
    (⟨256 * r.val + 1024 * q.val + s.val, by omega⟩ : Fin 4096) = sample (⟨256 * r.val + s.val, by omega⟩ : Fin 1024) q := by
  apply Fin.ext; show 256 * r.val + 1024 * q.val + s.val = 256 * r.val + s.val + 1024 * q.val; omega

/-- Column `0` of the indicators of the block loaded at position `4 r + q`, at compact row `25 s + w`: whether row
    `2 w` of the `q`-th sample of slot `256 r + s` is all zeros. -/
theorem indicator_even (c : Dev nD) (r q : Fin 4) (s : Fin 256) (w : Fin 25) :
    k0_pay5 (F := Ideal) (blockAt m c (4 * r.val + q.val)) (ix2 (⟨25 * s.val + w.val, by omega⟩ : Fin 6400) (0 : Fin 128))
      = rowZero (m ((c : Thread nD τ).loc main_arg0)) (sample (⟨256 * r.val + s.val, by omega⟩ : Fin 1024) q) (⟨2 * w.val, by omega⟩ : Fin 50) := by
  rw [pay5_lo]
  unfold rowZero
  rw [← sample_eq r q s]
  have e : ∀ k : Fin 64, blockAt (F := Ideal) m c (4 * r.val + q.val) (ix2 (⟨25 * s.val + w.val, by omega⟩ : Fin 6400) (lo k))
      = (m ((c : Thread nD τ).loc main_arg0)) (ix4 (⟨256 * r.val + 1024 * q.val + s.val, by omega⟩ : Fin 4096) (0 : Fin 2) (⟨2 * w.val, by omega⟩ : Fin 50) k) := by
    intro k
    rw [blockAt_apply]
    refine (compact_apply (m ((c : Thread nD τ).loc main_arg0)) (⟨256 * r.val + 1024 * q.val + s.val, by omega⟩ : Fin 4096) w (lo k)).trans ?_
    have hk : k.val < 64 := k.isLt
    have h1 : (⟨2 * w.val + (lo k).val / 64, by have := w.isLt; have : (lo k).val = k.val := rfl; omega⟩ : Fin 50) = (⟨2 * w.val, by omega⟩ : Fin 50) := by
      apply Fin.ext; show 2 * w.val + k.val / 64 = 2 * w.val; omega
    have h2 : (⟨(lo k).val % 64, Nat.mod_lt _ (by decide)⟩ : Fin 64) = k := by
      apply Fin.ext; show k.val % 64 = k.val; omega
    rw [h1, h2]
  simp only [e]

/-- Column `64` likewise: whether row `2 w + 1` of that sample is all zeros. -/
theorem indicator_odd (c : Dev nD) (r q : Fin 4) (s : Fin 256) (w : Fin 25) :
    k0_pay5 (F := Ideal) (blockAt m c (4 * r.val + q.val)) (ix2 (⟨25 * s.val + w.val, by omega⟩ : Fin 6400) (64 : Fin 128))
      = rowZero (m ((c : Thread nD τ).loc main_arg0)) (sample (⟨256 * r.val + s.val, by omega⟩ : Fin 1024) q) (⟨2 * w.val + 1, by omega⟩ : Fin 50) := by
  rw [pay5_hi]
  unfold rowZero
  rw [← sample_eq r q s]
  have e : ∀ k : Fin 64, blockAt (F := Ideal) m c (4 * r.val + q.val) (ix2 (⟨25 * s.val + w.val, by omega⟩ : Fin 6400) (hi k))
      = (m ((c : Thread nD τ).loc main_arg0)) (ix4 (⟨256 * r.val + 1024 * q.val + s.val, by omega⟩ : Fin 4096) (0 : Fin 2) (⟨2 * w.val + 1, by omega⟩ : Fin 50) k) := by
    intro k
    rw [blockAt_apply]
    refine (compact_apply (m ((c : Thread nD τ).loc main_arg0)) (⟨256 * r.val + 1024 * q.val + s.val, by omega⟩ : Fin 4096) w (hi k)).trans ?_
    have hk : k.val < 64 := k.isLt
    have h1 : (⟨2 * w.val + (hi k).val / 64, by have := w.isLt; have : (hi k).val = 64 + k.val := rfl; omega⟩ : Fin 50) = (⟨2 * w.val + 1, by omega⟩ : Fin 50) := by
      apply Fin.ext; show 2 * w.val + (64 + k.val) / 64 = 2 * w.val + 1; omega
    have h2 : (⟨(hi k).val % 64, Nat.mod_lt _ (by decide)⟩ : Fin 64) = k := by
      apply Fin.ext; show (64 + k.val) % 64 = k.val; omega
    rw [h1, h2]
  simp only [e]

end Cert.KernelIdeal.Bridge

end
-- ==== Proof.BodyI.Final.lean ====
/-
  The contents of the pipeline's two output arrays after the region.

  Each output array is 1024 × 25, cut into four blocks of 256 rows. Block `r` belongs to the grid positions
  `4 r, …, 4 r + 3` and is written back once, at position `4 r + 3`, from the output buffer, which then holds the
  accumulator's column (column 0 for the first output, column 64 for the second) re-laid as 256 × 25. So entry
  `(256 r + s, w)` of the array ends as entry `(s, w)` of that re-laid column of the accumulator after position `4 r + 3`.
-/
import proofs.«163752_g34205119545578_cont_sun_m_983_21_alg».proof.Proof.BodyI.Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The two output windows' index maps over the 16 grid positions: position `t` works on block `(t / 4, 0)`. -/
theorem idx_facts : ∀ t : Fin cfg0.N, win0_1.index t (0 : Fin 2) = t.val / 4 ∧ win0_1.index t (1 : Fin 2) = 0
    ∧ win0_2.index t (0 : Fin 2) = t.val / 4 ∧ win0_2.index t (1 : Fin 2) = 0 :=
  (by decide +kernel : ∀ t : Fin grid0.N, win0_1.index t (0 : Fin 2) = t.val / 4 ∧ win0_1.index t (1 : Fin 2) = 0
    ∧ win0_2.index t (0 : Fin 2) = t.val / 4 ∧ win0_2.index t (1 : Fin 2) = 0)

/-! ## Output window 1 -/

/-- Entry `(i, w)` of the array: block `i / 256` is written back at position `4 (i / 256) + 3`, with row `i mod 256` of the
    accumulator's re-laid column there. -/
def outArr1 (c : Dev nD) : S1024x25.Idx → Elt F .f32 := fun j =>
  k0_pay3 (accAt m c (4 * ((j 0).val / 256) + 3))
    (ix2 (⟨(j 0).val % 256, Nat.mod_lt _ (by decide)⟩ : Fin 256) (⟨(j 1).val, idx2_lt1 j⟩ : Fin 25))

/-- The array at an index `j` whose row lies in the block written back at position `n`, at row `y 0` of that block. -/
theorem outArr1_at (c : Dev nD) (n : ℕ) (j : S1024x25.Idx) (y : S256x25.Idx) (hn : 4 * ((j 0).val / 256) + 3 = n)
    (h0 : (j 0).val % 256 = (y 0).val) (h1 : (j 1).val = (y 1).val) :
    outArr1 m c j = k0_pay3 (accAt m c n) y := by
  subst hn
  unfold outArr1
  refine congrArg (k0_pay3 (accAt m c _)) ?_
  funext a
  match a with
  | ⟨0, _⟩ => exact Fin.ext h0
  | ⟨1, _⟩ => exact Fin.ext h1

/-- Row `256 r + s` of the array is row `s` of what position `4 r + 3` writes back. -/
theorem outArr1_apply (c : Dev nD) (r : Fin 4) (s : Fin 256) (w : Fin 25) :
    outArr1 m c (ix2 (⟨256 * r.val + s.val, by omega⟩ : Fin 1024) w) = k0_pay3 (accAt m c (4 * r.val + 3)) (ix2 s w) :=
  outArr1_at m c _ _ (ix2 s w) (by show 4 * ((256 * r.val + s.val) / 256) + 3 = 4 * r.val + 3; omega)
    (by show (256 * r.val + s.val) % 256 = s.val; omega) rfl

/-- What a position `t ≡ 3 (mod 4)` writes back is block `t / 4` of the array: the block's row `x 0` is the array's row
    `256 (t / 4) + x 0`, whose own block is written back at `4 (t / 4) + 3 = t`. -/
theorem flushed1_eq (c : Dev nD) (t : Fin cfg0.N) (hf : (cfg0.win 1).flush t = true) :
    (dats m 0 c).flushed 1 t = ((cfg0.win 1).blk t).view.read (Elt F) (outArr1 m c) := by
  show (cfg0.win 1).cut (grid0.coords t) ((dats m 0 c).after 1 t) = _
  rw [after_out1]
  have h3 : t.val % 4 = 3 := (flush0_1 t).mp hf
  obtain ⟨e10, e11, e20, e21⟩ := idx_facts t
  funext x
  show k0_pay3 (accAt m c t.val) x = outArr1 m c (((cfg0.win 1).blk t).view.emb x)
  have hx0 : (x 0).val < 256 := (x 0).isLt
  refine (outArr1_at m c t.val _ x ?_ ?_ ?_).symm
  · show 4 * ((win0_1.index t (0 : Fin 2) * 256 + 1 * (x 0).val) / 256) + 3 = t.val
    omega
  · show (win0_1.index t (0 : Fin 2) * 256 + 1 * (x 0).val) % 256 = (x 0).val
    omega
  · show win0_1.index t (1 : Fin 2) * 25 + 1 * (x 1).val = (x 1).val
    omega

/-- An index of the array is in point `t`'s block iff each coordinate is in the block's range on its axis. -/
theorem mem_blk1 (t : Fin cfg0.N) (i : S1024x25.Idx) :
    i ∈ ((cfg0.win 1).blk t).view.set ↔ ∀ a : Fin 2, win0_1.index t a * S256x25.size a ≤ (i a).val
      ∧ (i a).val < win0_1.index t a * S256x25.size a + S256x25.size a := by
  show i ∈ ((View.whole main_v3_0).slice (win0_1.rect t)).set ↔ _
  rw [View.set_slice_whole, Rect.mem_set_unit]
  exact Iff.rfl

/-- Every index of the array lies in the block of a position that writes back: row `i` in that of `4 (i / 256) + 3`. -/
theorem cover1 (i : S1024x25.Idx) :
    ∃ t : Fin cfg0.N, (cfg0.win 1).flush t = true ∧ i ∈ ((cfg0.win 1).blk t).view.set := by
  have hi0 : (i 0).val < 1024 := idx2_lt0 i
  have hi1 : (i 1).val < 25 := idx2_lt1 i
  have hN : cfg0.N = 16 := N_0
  have hlt : 4 * ((i 0).val / 256) + 3 < cfg0.N := lt_of_lt_of_eq (b := 16) (by omega) hN.symm
  obtain ⟨e10, e11, e20, e21⟩ := idx_facts (⟨4 * ((i 0).val / 256) + 3, hlt⟩ : Fin cfg0.N)
  refine ⟨⟨4 * ((i 0).val / 256) + 3, hlt⟩, (flush0_1 _).mpr (by show (4 * ((i 0).val / 256) + 3) % 4 = 3; omega), ?_⟩
  rw [mem_blk1]
  have ev : ((⟨4 * ((i 0).val / 256) + 3, hlt⟩ : Fin cfg0.N)).val = 4 * ((i 0).val / 256) + 3 := rfl
  intro a
  match a with
  | ⟨0, _⟩ =>
    show win0_1.index _ (0 : Fin 2) * 256 ≤ (i 0).val ∧ (i 0).val < win0_1.index _ (0 : Fin 2) * 256 + 256
    omega
  | ⟨1, _⟩ =>
    show win0_1.index _ (1 : Fin 2) * 25 ≤ (i 1).val ∧ (i 1).val < win0_1.index _ (1 : Fin 2) * 25 + 25
    omega

/-- After the region the array holds `outArr1`: every position that writes back writes its block of it, and those
    blocks cover the array. -/
theorem final1 (c : Dev nD) : (dats m 0 c).arrAt 1 cfg0.N = outArr1 m c :=
  (dats m 0 c).arrAt_eq_of_cover 1 (outArr1 m c) (fun t hf => flushed1_eq m c t hf) cover1

/-! ## Output window 2 -/

/-- Entry `(i, w)` of the array: block `i / 256` is written back at position `4 (i / 256) + 3`, with row `i mod 256` of the
    accumulator's re-laid column there. -/
def outArr2 (c : Dev nD) : S1024x25.Idx → Elt F .f32 := fun j =>
  k0_pay4 (accAt m c (4 * ((j 0).val / 256) + 3))
    (ix2 (⟨(j 0).val % 256, Nat.mod_lt _ (by decide)⟩ : Fin 256) (⟨(j 1).val, idx2_lt1 j⟩ : Fin 25))

/-- The array at an index `j` whose row lies in the block written back at position `n`, at row `y 0` of that block. -/
theorem outArr2_at (c : Dev nD) (n : ℕ) (j : S1024x25.Idx) (y : S256x25.Idx) (hn : 4 * ((j 0).val / 256) + 3 = n)
    (h0 : (j 0).val % 256 = (y 0).val) (h1 : (j 1).val = (y 1).val) :
    outArr2 m c j = k0_pay4 (accAt m c n) y := by
  subst hn
  unfold outArr2
  refine congrArg (k0_pay4 (accAt m c _)) ?_
  funext a
  match a with
  | ⟨0, _⟩ => exact Fin.ext h0
  | ⟨1, _⟩ => exact Fin.ext h1

/-- Row `256 r + s` of the array is row `s` of what position `4 r + 3` writes back. -/
theorem outArr2_apply (c : Dev nD) (r : Fin 4) (s : Fin 256) (w : Fin 25) :
    outArr2 m c (ix2 (⟨256 * r.val + s.val, by omega⟩ : Fin 1024) w) = k0_pay4 (accAt m c (4 * r.val + 3)) (ix2 s w) :=
  outArr2_at m c _ _ (ix2 s w) (by show 4 * ((256 * r.val + s.val) / 256) + 3 = 4 * r.val + 3; omega)
    (by show (256 * r.val + s.val) % 256 = s.val; omega) rfl

/-- What a position `t ≡ 3 (mod 4)` writes back is block `t / 4` of the array: the block's row `x 0` is the array's row
    `256 (t / 4) + x 0`, whose own block is written back at `4 (t / 4) + 3 = t`. -/
theorem flushed2_eq (c : Dev nD) (t : Fin cfg0.N) (hf : (cfg0.win 2).flush t = true) :
    (dats m 0 c).flushed 2 t = ((cfg0.win 2).blk t).view.read (Elt F) (outArr2 m c) := by
  show (cfg0.win 2).cut (grid0.coords t) ((dats m 0 c).after 2 t) = _
  rw [after_out2]
  have h3 : t.val % 4 = 3 := (flush0_2 t).mp hf
  obtain ⟨e10, e11, e20, e21⟩ := idx_facts t
  funext x
  show k0_pay4 (accAt m c t.val) x = outArr2 m c (((cfg0.win 2).blk t).view.emb x)
  have hx0 : (x 0).val < 256 := (x 0).isLt
  refine (outArr2_at m c t.val _ x ?_ ?_ ?_).symm
  · show 4 * ((win0_2.index t (0 : Fin 2) * 256 + 1 * (x 0).val) / 256) + 3 = t.val
    omega
  · show (win0_2.index t (0 : Fin 2) * 256 + 1 * (x 0).val) % 256 = (x 0).val
    omega
  · show win0_2.index t (1 : Fin 2) * 25 + 1 * (x 1).val = (x 1).val
    omega

/-- An index of the array is in point `t`'s block iff each coordinate is in the block's range on its axis. -/
theorem mem_blk2 (t : Fin cfg0.N) (i : S1024x25.Idx) :
    i ∈ ((cfg0.win 2).blk t).view.set ↔ ∀ a : Fin 2, win0_2.index t a * S256x25.size a ≤ (i a).val
      ∧ (i a).val < win0_2.index t a * S256x25.size a + S256x25.size a := by
  show i ∈ ((View.whole main_v3_1).slice (win0_2.rect t)).set ↔ _
  rw [View.set_slice_whole, Rect.mem_set_unit]
  exact Iff.rfl

/-- Every index of the array lies in the block of a position that writes back: row `i` in that of `4 (i / 256) + 3`. -/
theorem cover2 (i : S1024x25.Idx) :
    ∃ t : Fin cfg0.N, (cfg0.win 2).flush t = true ∧ i ∈ ((cfg0.win 2).blk t).view.set := by
  have hi0 : (i 0).val < 1024 := idx2_lt0 i
  have hi1 : (i 1).val < 25 := idx2_lt1 i
  have hN : cfg0.N = 16 := N_0
  have hlt : 4 * ((i 0).val / 256) + 3 < cfg0.N := lt_of_lt_of_eq (b := 16) (by omega) hN.symm
  obtain ⟨e10, e11, e20, e21⟩ := idx_facts (⟨4 * ((i 0).val / 256) + 3, hlt⟩ : Fin cfg0.N)
  refine ⟨⟨4 * ((i 0).val / 256) + 3, hlt⟩, (flush0_2 _).mpr (by show (4 * ((i 0).val / 256) + 3) % 4 = 3; omega), ?_⟩
  rw [mem_blk2]
  have ev : ((⟨4 * ((i 0).val / 256) + 3, hlt⟩ : Fin cfg0.N)).val = 4 * ((i 0).val / 256) + 3 := rfl
  intro a
  match a with
  | ⟨0, _⟩ =>
    show win0_2.index _ (0 : Fin 2) * 256 ≤ (i 0).val ∧ (i 0).val < win0_2.index _ (0 : Fin 2) * 256 + 256
    omega
  | ⟨1, _⟩ =>
    show win0_2.index _ (1 : Fin 2) * 25 ≤ (i 1).val ∧ (i 1).val < win0_2.index _ (1 : Fin 2) * 25 + 25
    omega

/-- After the region the array holds `outArr2`: every position that writes back writes its block of it, and those
    blocks cover the array. -/
theorem final2 (c : Dev nD) : (dats m 0 c).arrAt 2 cfg0.N = outArr2 m c :=
  (dats m 0 c).arrAt_eq_of_cover 2 (outArr2 m c) (fun t hf => flushed2_eq m c t hf) cover2

end Cert.KernelIdeal.Hand

end
-- ==== Proof.Bridge.Value.lean ====
/-
  The kernel's result is the specification's.

  After the run the two output arrays hold, at slot `256 r + s` and column `w`, column 0 and column 64 of the
  accumulator after position `4 r + 3` at compact row `25 s + w`: the number of all-zero rows `2 w` (resp. `2 w + 1`)
  among the slot's four samples. The host interleaves the two arrays into rows `2 w`, `2 w + 1` and adds the
  counters, which is the specification's value at that slot and row.
-/
import proofs.«163752_g34205119545578_cont_sun_m_983_21_alg».proof.Proof.Bridge.Acc
import proofs.«163752_g34205119545578_cont_sun_m_983_21_alg».proof.Proof.BodyI.Final

set_option maxRecDepth 16384

noncomputable section

open scoped BigOperators

namespace Cert.KernelIdeal.Bridge

open Cert.KernelIdeal Cert.KernelIdeal.Gen Cert.KernelIdeal.Hand Cert.KernelIdeal.LayoutValue
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

open Cert.KernelIdeal.PayValue Cert.Spec

/-- The result at an even row `2 w` of slot `256 r + s`. -/
theorem value_even (c : Dev nD) (r : Fin 4) (s : Fin 256) (w : Fin 25) :
    tail (m ((c : Thread nD τ).loc main_arg1)) (outArr1 m c) (outArr2 m c) (ix2 (⟨256 * r.val + s.val, by omega⟩ : Fin 1024) (⟨2 * w.val, by omega⟩ : Fin 50))
      = Gat (m ((c : Thread nD τ).loc main_arg0)) (m ((c : Thread nD τ).loc main_arg1)) (⟨256 * r.val + s.val, by omega⟩ : Fin 1024) (⟨2 * w.val, by omega⟩ : Fin 50) := by
  rw [tail_even, outArr1_apply, pay3_apply, accAt_last_apply]
  rw [show k0_pay5 (F := Ideal) (blockAt m c (4 * r.val)) (ix2 (⟨25 * s.val + w.val, by omega⟩ : Fin 6400) (0 : Fin 128)) = _ from indicator_even m c r 0 s w,
    show k0_pay5 (F := Ideal) (blockAt m c (4 * r.val + 1)) (ix2 (⟨25 * s.val + w.val, by omega⟩ : Fin 6400) (0 : Fin 128)) = _ from indicator_even m c r 1 s w,
    show k0_pay5 (F := Ideal) (blockAt m c (4 * r.val + 2)) (ix2 (⟨25 * s.val + w.val, by omega⟩ : Fin 6400) (0 : Fin 128)) = _ from indicator_even m c r 2 s w,
    show k0_pay5 (F := Ideal) (blockAt m c (4 * r.val + 3)) (ix2 (⟨25 * s.val + w.val, by omega⟩ : Fin 6400) (0 : Fin 128)) = _ from indicator_even m c r 3 s w]
  unfold Gat
  rw [Fin.sum_univ_four]

/-- The result at an odd row `2 w + 1` of slot `256 r + s`. -/
theorem value_odd (c : Dev nD) (r : Fin 4) (s : Fin 256) (w : Fin 25) :
    tail (m ((c : Thread nD τ).loc main_arg1)) (outArr1 m c) (outArr2 m c) (ix2 (⟨256 * r.val + s.val, by omega⟩ : Fin 1024) (⟨2 * w.val + 1, by omega⟩ : Fin 50))
      = Gat (m ((c : Thread nD τ).loc main_arg0)) (m ((c : Thread nD τ).loc main_arg1)) (⟨256 * r.val + s.val, by omega⟩ : Fin 1024) (⟨2 * w.val + 1, by omega⟩ : Fin 50) := by
  rw [tail_odd, outArr2_apply, pay4_apply, accAt_last_apply]
  rw [show k0_pay5 (F := Ideal) (blockAt m c (4 * r.val)) (ix2 (⟨25 * s.val + w.val, by omega⟩ : Fin 6400) (64 : Fin 128)) = _ from indicator_odd m c r 0 s w,
    show k0_pay5 (F := Ideal) (blockAt m c (4 * r.val + 1)) (ix2 (⟨25 * s.val + w.val, by omega⟩ : Fin 6400) (64 : Fin 128)) = _ from indicator_odd m c r 1 s w,
    show k0_pay5 (F := Ideal) (blockAt m c (4 * r.val + 2)) (ix2 (⟨25 * s.val + w.val, by omega⟩ : Fin 6400) (64 : Fin 128)) = _ from indicator_odd m c r 2 s w,
    show k0_pay5 (F := Ideal) (blockAt m c (4 * r.val + 3)) (ix2 (⟨25 * s.val + w.val, by omega⟩ : Fin 6400) (64 : Fin 128)) = _ from indicator_odd m c r 3 s w]
  unfold Gat
  rw [Fin.sum_univ_four]

/-- The host's result array is the specification's function of the two arguments. -/
theorem value_eq (c : Dev nD) :
    tail (m ((c : Thread nD τ).loc main_arg1)) (outArr1 m c) (outArr2 m c)
      = G (m ((c : Thread nD τ).loc main_arg0)) (m ((c : Thread nD τ).loc main_arg1)) := by
  funext i
  obtain ⟨b, h, rfl⟩ : ∃ (b : Fin 1024) (h : Fin 50), i = ix2 b h := ⟨i 0, i 1, eq_ix2 i⟩
  rw [G_apply]
  have hb : b = (⟨256 * (⟨b.val / 256, by omega⟩ : Fin 4).val + (⟨b.val % 256, Nat.mod_lt _ (by decide)⟩ : Fin 256).val, by have := b.isLt; show 256 * (b.val / 256) + b.val % 256 < 1024; omega⟩ : Fin 1024) := by
    apply Fin.ext; show b.val = 256 * (b.val / 256) + b.val % 256; omega
  rcases Nat.even_or_odd' h.val with ⟨k, hk | hk⟩
  · have hh : h = (⟨2 * (⟨k, by have := h.isLt; omega⟩ : Fin 25).val, by have := h.isLt; show 2 * k < 50; omega⟩ : Fin 50) := Fin.ext hk
    rw [hb, hh]
    exact value_even m c _ _ _
  · have hh : h = (⟨2 * (⟨k, by have := h.isLt; omega⟩ : Fin 25).val + 1, by have := h.isLt; show 2 * k + 1 < 50; omega⟩ : Fin 50) := Fin.ext hk
    rw [hb, hh]
    exact value_odd m c _ _ _

/-! ## The kernel's run, with its result named -/

set_option backward.isDefEq.respectTransparency.types false in
/-- Every weakly fair execution of the kernel's program terminates with the result array at the specification's
    function of the two argument arrays, which end unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v8) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v8 (Pipeline.mem_restRefs_of main_v8 (by decide) (by decide))).trans
        ((result_eq m (dats m) c).trans (by rw [final1, final2]; exact value_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main (F := Ideal) m ρ)

end Cert.KernelIdeal.Bridge

end
-- ==== Proof.RefTerm.lean ====
import proofs.«163752_g34205119545578_cont_sun_m_983_21_alg».proof.Proof.Gen.ReferenceIdeal

noncomputable section

namespace Cert.RefSide

open Cert.ReferenceIdeal Cert.ReferenceIdeal.Gen Idealize.ShloMosaic

variable {F : FTy → Type} [FloatOps F]

/-! ## The result as one term of the two arguments -/

/-- The divisor the remainder function divides by: the word 1024, which the inner select would replace by 1 if it
    were 0. -/
def divisorW : IVec S_ 32 :=
  select (cmpi .eq (id (constantI S_ 32 1024#32)) (constantI S_ 32 0#32)) (constantI S_ 32 1#32) (id (constantI S_ 32 1024#32))

/-- The truncated remainder of the sample number 0..4095 by the divisor (the sign of the dividend). -/
def remT : IVec S4096 32 := Host.remsi (iotaInDim S4096 32 0) (broadcastInDim S4096 ![] bcast_S_S4096 divisorW)

/-- The floored remainder: the truncated one plus the divisor where it is not zero and its sign differs from the
    divisor's. -/
def remF : IVec S4096 32 :=
  select
    (andi
      (cmpi .ne (cmpi .slt remT (broadcastInDim S4096 ![] bcast_S_S4096 (constantI S_ 32 0#32)))
        (broadcastInDim S4096 ![] bcast_S_S4096 (cmpi .slt divisorW (constantI S_ 32 0#32))))
      (cmpi .ne remT (broadcastInDim S4096 ![] bcast_S_S4096 (constantI S_ 32 0#32))))
    (addi remT (broadcastInDim S4096 ![] bcast_S_S4096 divisorW))
    remT

/-- The slot of each sample: the floored remainder, with 1024 added where it is negative (the indexing
    convention for negative positions). -/
def slotW : IVec S4096 32 :=
  select (cmpi .slt remF (broadcastInDim S4096 ![] bcast_S_S4096 (constantI S_ 32 0#32)))
    (addi remF (broadcastInDim S4096 ![] bcast_S_S4096 (constantI S_ 32 1024#32)))
    remF

/-- The slots as a column of one-component index vectors. -/
def slotCol : IVec S4096x1 32 := broadcastInDim S4096x1 ![0] bcast_S4096_S4096x1_0 slotW

/-- For each sample and row, the zero word plus the sum over the 64 entries of channel 0 of their absolute values. -/
def rowSum (x : (⟨S4096x2x50x64, .f32⟩ : BufTy).Contents (Elt F)) : (⟨S4096x50, .f32⟩ : BufTy).Contents (Elt F) :=
  Host.reduceAdd
    (Host.absf fun i =>
      shapeCast S4096x50x64
        (extractStridedSlice S4096x1x50x64 ![0, 0, 0, 0] x slices_S4096x2x50x64_S4096x1x50x64_0_0_0_0)
        shapeCasts_S4096x1x50x64_S4096x50x64 i)
    (constant S_ .f32 0x00000000#32) reducesTo_S4096x50x64_S4096x50_d2 h_S_

/-- For each sample and row, the comparison of that sum with zero, the one bit read as a float. -/
def flag (x : (⟨S4096x2x50x64, .f32⟩ : BufTy).Contents (Elt F)) : (⟨S4096x50, .f32⟩ : BufTy).Contents (Elt F) :=
  uitofp .f32 (cmpf .oeq (rowSum x) (broadcastInDim S4096x50 ![] bcast_S_S4096x50 (constant S_ .f32 0x00000000#32)))

/-- What the program leaves in its result: the counters plus the table of zeros into which row `n` of the flags was
    added at slot `slotCol n`. -/
def refTerm (x : (⟨S4096x2x50x64, .f32⟩ : BufTy).Contents (Elt F)) (seen : (⟨S1024x50, .f32⟩ : BufTy).Contents (Elt F)) :
    (⟨S1024x50, .f32⟩ : BufTy).Contents (Elt F) :=
  addf seen
    (Host.scatterAdd scatter_S1024x50_S4096x1_S4096x50_1_0_0_1
      (broadcastInDim S1024x50 ![] bcast_S_S1024x50 (constant S_ .f32 0x00000000#32)) slotCol (flag x))

end Cert.RefSide

end
-- ==== Proof.RefRun0.lean ====
import proofs.«163752_g34205119545578_cont_sun_m_983_21_alg».proof.Proof.RefTerm
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The reference program as one straight line of 44 host operations: the ten before the call (slice of channel 0,
    reshape, absolute value, the zero word, the sum over the last axis, a second zero word broadcast, the
    comparison with zero, the iota 0..4095, the word 1024), the twenty-one of the remainder function written at
    the call's own buffers (the divisor guarded against zero by the inner select, the truncated remainder, and the
    sign repair that turns it into the floored one), and the thirteen after it (the bit as a float, the zero table,
    the second sign repair, the index column, the scatter-add and the final sum with the counters). -/
abbrev ops : List (HloOp τ sig (Elt F)) :=
  [ unary main_arg0 main_v0 ((extractStridedSlice S4096x1x50x64 ![0, 0, 0, 0] · slices_S4096x2x50x64_S4096x1x50x64_0_0_0_0) : (⟨S4096x2x50x64, .f32⟩ : BufTy).Contents (Elt F) → (⟨S4096x1x50x64, .f32⟩ : BufTy).Contents (Elt F)),
    reshape main_v0 main_v1 rfl shapeCasts_S4096x1x50x64_S4096x50x64,
    unary main_v1 main_v2 (Host.absf : (⟨S4096x50x64, .f32⟩ : BufTy).Contents (Elt F) → (⟨S4096x50x64, .f32⟩ : BufTy).Contents (Elt F)),
    nullary main_cst (constant S_ .f32 0x00000000#32),
    binary main_v2 main_cst main_v3 ((fun x v => Host.reduceAdd x v reducesTo_S4096x50x64_S4096x50_d2 h_S_) : (⟨S4096x50x64, .f32⟩ : BufTy).Contents (Elt F) → (⟨S_, .f32⟩ : BufTy).Contents (Elt F) → (⟨S4096x50, .f32⟩ : BufTy).Contents (Elt F)),
    nullary main_cst_0 (constant S_ .f32 0x00000000#32),
    unary main_cst_0 main_v4 (broadcastInDim S4096x50 ![] bcast_S_S4096x50 : (⟨S_, .f32⟩ : BufTy).Contents (Elt F) → (⟨S4096x50, .f32⟩ : BufTy).Contents (Elt F)),
    binary main_v3 main_v4 main_v5 (cmpf .oeq : (⟨S4096x50, .f32⟩ : BufTy).Contents (Elt F) → (⟨S4096x50, .f32⟩ : BufTy).Contents (Elt F) → (⟨S4096x50, .i1⟩ : BufTy).Contents (Elt F)),
    nullary main_v6 (iotaInDim S4096 32 0),
    nullary main_c (constantI S_ 32 1024#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S4096 ![] bcast_S_S4096),
    TRef.binary (.of main_v6) main_call0.v3 main_call0.v4 Host.remsi,
    TRef.nullary main_call0.c_1 (constantI S_ 32 0#32),
    TRef.unary main_call0.c_1 main_call0.v5 (broadcastInDim S4096 ![] bcast_S_S4096),
    TRef.binary main_call0.v4 main_call0.v5 main_call0.v6 (cmpi .ne),
    TRef.nullary main_call0.c_2 (constantI S_ 32 0#32),
    TRef.unary main_call0.c_2 main_call0.v7 (broadcastInDim S4096 ![] bcast_S_S4096),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S4096 ![] bcast_S_S4096),
    TRef.binary main_call0.v8 main_call0.v10 main_call0.v11 (cmpi .ne),
    TRef.binary main_call0.v11 main_call0.v6 main_call0.v12 andi,
    TRef.unary main_call0.call0.v0 main_call0.v13 (broadcastInDim S4096 ![] bcast_S_S4096),
    TRef.binary main_call0.v4 main_call0.v13 main_call0.v14 addi,
    TRef.ternary main_call0.v12 main_call0.v14 main_call0.v4 main_call0.v15 select,
    unary main_v5 main_v8 (uitofp .f32 : (⟨S4096x50, .i1⟩ : BufTy).Contents (Elt F) → (⟨S4096x50, .f32⟩ : BufTy).Contents (Elt F)),
    nullary main_cst_1 (constant S_ .f32 0x00000000#32),
    unary main_cst_1 main_v9 (broadcastInDim S1024x50 ![] bcast_S_S1024x50 : (⟨S_, .f32⟩ : BufTy).Contents (Elt F) → (⟨S1024x50, .f32⟩ : BufTy).Contents (Elt F)),
    nullary main_c_2 (constantI S_ 32 0#32),
    unary main_c_2 main_v10 (broadcastInDim S4096 ![] bcast_S_S4096 : (⟨S_, .i32⟩ : BufTy).Contents (Elt F) → (⟨S4096, .i32⟩ : BufTy).Contents (Elt F)),
    binary main_v7 main_v10 main_v11 (cmpi .slt : (⟨S4096, .i32⟩ : BufTy).Contents (Elt F) → (⟨S4096, .i32⟩ : BufTy).Contents (Elt F) → (⟨S4096, .i1⟩ : BufTy).Contents (Elt F)),
    nullary main_c_3 (constantI S_ 32 1024#32),
    unary main_c_3 main_v12 (broadcastInDim S4096 ![] bcast_S_S4096 : (⟨S_, .i32⟩ : BufTy).Contents (Elt F) → (⟨S4096, .i32⟩ : BufTy).Contents (Elt F)),
    binary main_v7 main_v12 main_v13 (addi : (⟨S4096, .i32⟩ : BufTy).Contents (Elt F) → (⟨S4096, .i32⟩ : BufTy).Contents (Elt F) → (⟨S4096, .i32⟩ : BufTy).Contents (Elt F)),
    ternary main_v11 main_v13 main_v7 main_v14 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v14 main_v15 (broadcastInDim S4096x1 ![0] bcast_S4096_S4096x1_0 : (⟨S4096, .i32⟩ : BufTy).Contents (Elt F) → (⟨S4096x1, .i32⟩ : BufTy).Contents (Elt F)),
    ternary main_v9 main_v15 main_v8 main_v16 ((fun x i u => Host.scatterAdd scatter_S1024x50_S4096x1_S4096x50_1_0_0_1 x i u) : (⟨S1024x50, .f32⟩ : BufTy).Contents (Elt F) → (⟨S4096x1, .i32⟩ : BufTy).Contents (Elt F) → (⟨S4096x50, .f32⟩ : BufTy).Contents (Elt F) → (⟨S1024x50, .f32⟩ : BufTy).Contents (Elt F)),
    binary main_arg1 main_v16 main_v17 (addf : (⟨S1024x50, .f32⟩ : BufTy).Contents (Elt F) → (⟨S1024x50, .f32⟩ : BufTy).Contents (Elt F) → (⟨S1024x50, .f32⟩ : BufTy).Contents (Elt F)) ]

set_option maxRecDepth 1024 in
/-- The program text is that straight line: unfolding the two outlined functions at their calls and
    re-associating the sequencing leaves the same chain of steps on both sides. -/
theorem main_eq (c : Dev nD) : main (F := F) c = seq ops := by
  simp only [main, fn_remainder.body, fn_where.body, seq, bind_assoc, pure_bind]

/-- No buffer of the signature is scoped. -/
theorem scopedRefs_eq : (Finset.univ.filter fun b : Ref sig .tc => b.isScoped) = ∅ := by decide
/-- No semaphore of the signature is scoped (there is none). -/
theorem scopedSems_eq : (Finset.univ.filter fun sm : SemLoc sig => sm.isScoped .tc) = ∅ := by decide

/-- Every operation of the line touches only buffers of the device. -/
theorem ops_sub : (ops : List (HloOp τ sig (Elt F))).Forall fun op => op.bufs ⊆ tcRefs τ sig :=
  ⟨unary_bufs_sub .., reshape_bufs_sub .., unary_bufs_sub .., nullary_bufs_sub .., binary_bufs_sub .., nullary_bufs_sub ..,
    unary_bufs_sub .., binary_bufs_sub .., nullary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    unary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., ternary_bufs_sub ..,
    binary_bufs_sub ..⟩

/-- From any memory with zero counters every weakly fair execution of the reference ends, each buffer of each
    device holding the fold of the 44 operations over what the device held at launch. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the result buffer -/

set_option maxRecDepth 8192 in
/-- The fold of the 44 operations at the result buffer is that term of the two argument buffers: each operation's
    result read at its own buffer is its function of its operands' buffers, and no other operation writes it. -/
theorem out_eq (V : Valuation τ sig (Elt F)) :
    after ops V (main_v17 : DevRef τ sig) = refTerm (V (main_arg0 : DevRef τ sig)) (V (main_arg1 : DevRef τ sig)) := by
  after_results_simp
  rfl

/-- No operation writes the first argument. -/
theorem arg0_eq (V : Valuation τ sig (Elt F)) : after ops V (main_arg0 : DevRef τ sig) = V (main_arg0 : DevRef τ sig) := by
  after_results_simp

/-- No operation writes the second argument. -/
theorem arg1_eq (V : Valuation τ sig (Elt F)) : after ops V (main_arg1 : DevRef τ sig) = V (main_arg1 : DevRef τ sig) := by
  after_results_simp

/-- Every weakly fair execution of the reference from a memory with zero counters ends with the result buffer at
    `refTerm` of the two arguments' launch contents, and the arguments as they were. -/
theorem run0 (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c main_v17).trans (out_eq _), (h c main_arg0).trans (arg0_eq _), (h c main_arg1).trans (arg1_eq _)⟩)
    (run_fold m ρ)

end Cert.RefSide

end
-- ==== Proof.RefWord.lean ====
/-
  Word arithmetic of the slot computation, one sample number at a time: for a number below 4096 the host's signed
  remainder by 1024 is the number's remainder, a word below 1024 is not negative, and so neither of the two sign
  repairs the program applies changes it.
-/
import Idealize.ShloMosaic.PureOps
import Idealize.ShloMosaic.Lib.ValueIdx

namespace Cert.RefSide

open Idealize.ShloMosaic

/-- The host's signed remainder of a sample number below 4096 by 1024 is the number's remainder as a word. -/
theorem remsi_word (n : Nat) (hn : n < 4096) :
    IntOp.remsi .host (BitVec.ofNat 32 n) 1024#32 = BitVec.ofNat 32 (n % 1024) := by
  unfold IntOp.remsi
  rw [if_neg (by
    rintro (h | ⟨_, h⟩)
    · exact absurd h (by decide)
    · exact absurd h (by decide))]
  have hx : (BitVec.ofNat 32 n).msb = false := by
    rw [BitVec.msb_eq_decide]; simp; omega
  have hy : (1024#32 : BitVec 32).msb = false := by decide
  unfold BitVec.srem
  rw [hx, hy]
  apply BitVec.eq_of_toNat_eq
  simp
  omega

/-- A word below 1024 read as a signed integer is the number. -/
theorem toInt_word (k : Nat) (hk : k < 1024) : (BitVec.ofNat 32 k).toInt = (k : Int) := by
  rw [BitVec.toInt_eq_toNat_of_lt (by simp; omega)]
  simp; omega

/-- A word below 1024 is not negative. -/
theorem slt_zero_word (k : Nat) (hk : k < 1024) : IntOp.cmpi .slt (BitVec.ofNat 32 k) 0#32 = 0#1 := by
  unfold IntOp.cmpi
  have : (BitVec.ofNat 32 k).slt 0#32 = false := by
    rw [BitVec.slt_eq_decide, toInt_word k hk]; simp
  simp [this]

/-- The remainder function's sign repair leaves a word below 1024 as it is: neither it nor the divisor is negative,
    so the two sign bits agree and nothing is added. -/
theorem repair_word (k : Nat) (hk : k < 1024) (d : BitVec 32) (a : BitVec 32) :
    Scalar.select
      (IntOp.andi (IntOp.cmpi .ne (IntOp.cmpi .slt (BitVec.ofNat 32 k) 0#32) (IntOp.cmpi .slt 1024#32 0#32))
        (IntOp.cmpi .ne (BitVec.ofNat 32 k) 0#32))
      a (BitVec.ofNat 32 k) = BitVec.ofNat 32 k := by
  rw [slt_zero_word k hk]
  have h1 : IntOp.cmpi .slt (1024#32 : BitVec 32) 0#32 = 0#1 := by decide
  rw [h1]
  have h2 : IntOp.cmpi .ne (0#1 : BitVec 1) 0#1 = 0#1 := by decide
  rw [h2]
  have h3 : ∀ b : BitVec 1, IntOp.andi 0#1 b = 0#1 := by decide
  rw [h3, ValueIdx.select_zero]

/-- The index convention's repair (add 1024 to a negative position) leaves a word below 1024 as it is. -/
theorem wrap_word (k : Nat) (hk : k < 1024) (a : BitVec 32) :
    Scalar.select (IntOp.cmpi .slt (BitVec.ofNat 32 k) 0#32) a (BitVec.ofNat 32 k) = BitVec.ofNat 32 k := by
  rw [slt_zero_word k hk, ValueIdx.select_zero]

/-- The divisor word: 1024 is not zero, so the guard keeps it. -/
theorem divisor_word :
    Scalar.select (IntOp.cmpi .eq (id (1024#32 : BitVec 32)) 0#32) (1#32 : BitVec 32) (id (1024#32 : BitVec 32)) = 1024#32 := by
  decide

end Cert.RefSide
-- ==== Proof.RefIndex.lean ====
/-
  The slot column read at a sample: the word of the sample number's remainder by 1024; and where the scatter sends
  row `h` of sample `n`: to slot `n mod 1024`, row `h`, always inside the table.
-/
import proofs.«163752_g34205119545578_cont_sun_m_983_21_alg».proof.Proof.RefTerm
import proofs.«163752_g34205119545578_cont_sun_m_983_21_alg».proof.Proof.RefWord
import Idealize.ShloMosaic.Lib.IdealHost
import Idealize.ShloMosaic.Lib.Pipeline.Value

noncomputable section

namespace Cert.RefSide

open Cert.ReferenceIdeal Cert.ReferenceIdeal.Gen Idealize.ShloMosaic Idealize.ShloMosaic.ValueIdx

/-- The divisor is the word 1024. -/
theorem divisorW_apply (i : S_.Idx) : divisorW i = 1024#32 := divisor_word

/-- A scalar broadcast over the 4096 samples reads the scalar. -/
theorem bcast4096_apply {α : Type} (x : S_.Idx → α) (n : Fin 4096) :
    broadcastInDim S4096 ![] bcast_S_S4096 x (ix1 n) = x ix0 := broadcastInDim_scalar_apply _ _ _

/-- The truncated remainder at sample `n` is the word of `n mod 1024`. -/
theorem remT_apply (n : Fin 4096) : remT (ix1 n) = BitVec.ofNat 32 (n.val % 1024) := by
  show IntOp.remsi .host (BitVec.ofNat 32 n.val) (broadcastInDim S4096 ![] bcast_S_S4096 divisorW (ix1 n)) = _
  rw [bcast4096_apply, divisorW_apply]
  exact remsi_word n.val n.isLt

/-- The floored remainder at sample `n` is the same word: the repair adds nothing. -/
theorem remF_apply (n : Fin 4096) : remF (ix1 n) = BitVec.ofNat 32 (n.val % 1024) := by
  show Scalar.select
      (IntOp.andi
        (IntOp.cmpi .ne (IntOp.cmpi .slt (remT (ix1 n)) (broadcastInDim S4096 ![] bcast_S_S4096 (constantI S_ 32 0#32) (ix1 n)))
          (broadcastInDim S4096 ![] bcast_S_S4096 (cmpi .slt divisorW (constantI S_ 32 0#32)) (ix1 n)))
        (IntOp.cmpi .ne (remT (ix1 n)) (broadcastInDim S4096 ![] bcast_S_S4096 (constantI S_ 32 0#32) (ix1 n))))
      (addi remT (broadcastInDim S4096 ![] bcast_S_S4096 divisorW) (ix1 n)) (remT (ix1 n)) = _
  rw [bcast4096_apply, bcast4096_apply, remT_apply]
  show Scalar.select
      (IntOp.andi
        (IntOp.cmpi .ne (IntOp.cmpi .slt (BitVec.ofNat 32 (n.val % 1024)) 0#32) (IntOp.cmpi .slt (divisorW ix0) 0#32))
        (IntOp.cmpi .ne (BitVec.ofNat 32 (n.val % 1024)) 0#32))
      _ (BitVec.ofNat 32 (n.val % 1024)) = _
  rw [divisorW_apply]
  exact repair_word _ (Nat.mod_lt _ (by decide)) 1024#32 _

/-- The slot word at sample `n` is the same word again: it is not negative, so 1024 is not added. -/
theorem slotW_apply (n : Fin 4096) : slotW (ix1 n) = BitVec.ofNat 32 (n.val % 1024) := by
  show Scalar.select
      (IntOp.cmpi .slt (remF (ix1 n)) (broadcastInDim S4096 ![] bcast_S_S4096 (constantI S_ 32 0#32) (ix1 n)))
      (addi remF (broadcastInDim S4096 ![] bcast_S_S4096 (constantI S_ 32 1024#32)) (ix1 n)) (remF (ix1 n)) = _
  rw [bcast4096_apply, remF_apply]
  exact wrap_word _ (Nat.mod_lt _ (by decide)) _

/-- The slot column at any of its indices is the slot word of the index's sample. -/
theorem slotCol_apply (b : S4096x1.Idx) : slotCol b = BitVec.ofNat 32 ((b 0).val % 1024) := by
  have hb : (b 0).val < 4096 := (b 0).isLt
  have := broadcastInDim_apply (![0] : Fin 1 → Fin S4096x1.rank) bcast_S4096_S4096x1_0 slotW b (ix1 ⟨(b 0).val, hb⟩)
    (fun a => by
      match a with
      | ⟨0, _⟩ => rfl)
  exact this.trans (slotW_apply ⟨(b 0).val, hb⟩)

end Cert.RefSide

end
-- ==== Proof.RefScatter.lean ====
/-
  Where the scatter sends an update: row `h` of sample `n` lands at slot `n mod 1024`, row `h` of the table — the start
  on the slot axis is the slot word read signed, the window coordinate is the row, and both stay inside the table.
-/
import proofs.«163752_g34205119545578_cont_sun_m_983_21_alg».proof.Proof.RefIndex

noncomputable section

namespace Cert.RefSide

open Cert.ReferenceIdeal Cert.ReferenceIdeal.Gen Idealize.ShloMosaic Idealize.ShloMosaic.ValueIdx

/-- The scatter's dimension numbers: the table's slot axis is indexed, its row axis is the update's window. -/
abbrev dd : ScatterDims S1024x50 S4096x1 S4096x50 := scatter_S1024x50_S4096x1_S4096x50_1_0_0_1

/-- On the slot axis the window starts at the sample's slot. -/
theorem start_slot (n : Fin 4096) (h : Fin 50) : dd.start (ix2 n h) slotCol 0 = ((n.val % 1024 : Nat) : Int) := by
  unfold ScatterDims.start
  rw [dif_pos (by decide), slotCol_apply]
  exact toInt_word _ (Nat.mod_lt _ (by decide))

/-- On the row axis the window starts at 0. -/
theorem start_row (n : Fin 4096) (h : Fin 50) : dd.start (ix2 n h) slotCol 1 = 0 := by
  unfold ScatterDims.start
  rw [dif_neg (by decide)]

/-- The slot axis is not a window axis. -/
theorem window_slot (n : Fin 4096) (h : Fin 50) : dd.window (ix2 n h) 0 = 0 := by
  unfold ScatterDims.window
  rw [dif_neg (by decide)]

/-- On the row axis the window coordinate is the update's row. -/
theorem window_row (n : Fin 4096) (h : Fin 50) : dd.window (ix2 n h) 1 = h.val := by
  unfold ScatterDims.window
  rw [dif_pos (by decide)]
  rfl

/-- Row `h` of sample `n` is added at slot `n mod 1024`, row `h`. -/
theorem resultIdx_slot (n : Fin 4096) (h : Fin 50) :
    dd.resultIdx? (ix2 n h) slotCol = some (ix2 (⟨n.val % 1024, Nat.mod_lt _ (by decide)⟩ : Fin 1024) h) := by
  have hm : n.val % 1024 < 1024 := Nat.mod_lt _ (by decide)
  have hh : h.val < 50 := h.isLt
  unfold ScatterDims.resultIdx?
  rw [dif_pos (by
    intro a
    match a with
    | ⟨0, _⟩ =>
      show 0 ≤ dd.start (ix2 n h) slotCol 0 + dd.window (ix2 n h) 0 ∧ dd.start (ix2 n h) slotCol 0 + dd.window (ix2 n h) 0 < 1024
      rw [start_slot, window_slot]; omega
    | ⟨1, _⟩ =>
      show 0 ≤ dd.start (ix2 n h) slotCol 1 + dd.window (ix2 n h) 1 ∧ dd.start (ix2 n h) slotCol 1 + dd.window (ix2 n h) 1 < 50
      rw [start_row, window_row]; omega)]
  refine congrArg some (funext fun a => ?_)
  match a with
  | ⟨0, _⟩ =>
    refine Fin.ext ?_
    show (dd.start (ix2 n h) slotCol 0 + dd.window (ix2 n h) 0).toNat = n.val % 1024
    rw [start_slot, window_slot]; omega
  | ⟨1, _⟩ =>
    refine Fin.ext ?_
    show (dd.start (ix2 n h) slotCol 1 + dd.window (ix2 n h) 1).toNat = h.val
    rw [start_row, window_row]; omega

end Cert.RefSide

end
-- ==== Proof.RefSum.lean ====
/-
  Re-indexing the samples of one slot: a sum over the 4096 samples restricted to those whose number leaves remainder
  `b` modulo 1024 is the sum over the four samples `b`, `b + 1024`, `b + 2048`, `b + 3072`.
-/
import proofs.«163752_g34205119545578_cont_sun_m_983_21_alg».proof.Proof.Spec

open scoped BigOperators

namespace Cert.RefSide

open Idealize.ShloMosaic Idealize.ShloMosaic.ValueIdx

/-- The samples with remainder `b` modulo 1024 are exactly the four samples of slot `b`, each once. -/
theorem sum_slot {M : Type*} [AddCommMonoid M] (g : Fin 4096 → M) (b : Fin 1024) :
    (∑ n : Fin 4096, if n.val % 1024 = b.val then g n else 0) = ∑ q : Fin 4, g (Cert.Spec.sample b q) := by
  rw [← Finset.sum_filter]
  symm
  refine Finset.sum_bij (fun q _ => Cert.Spec.sample b q) ?_ ?_ ?_ ?_
  · intro q _
    rw [Finset.mem_filter]
    refine ⟨Finset.mem_univ _, ?_⟩
    show (b.val + 1024 * q.val) % 1024 = b.val
    have := b.isLt
    omega
  · intro q _ q' _ e
    have e' : b.val + 1024 * q.val = b.val + 1024 * q'.val := congrArg Fin.val e
    exact Fin.ext (by omega)
  · intro n hn
    rw [Finset.mem_filter] at hn
    have hlt := n.isLt
    refine ⟨⟨n.val / 1024, by omega⟩, Finset.mem_univ _, Fin.ext ?_⟩
    show b.val + 1024 * (n.val / 1024) = n.val
    have := hn.2
    omega
  · intro q _
    rfl

/-- Two rank-2 indices built from coordinates are equal exactly when the coordinates are. -/
theorem ix2_eq_iff {n0 n1 : Nat} (a a' : Fin n0) (c c' : Fin n1) : ix2 a c = ix2 a' c' ↔ a = a' ∧ c = c' := by
  constructor
  · intro e
    have e0 : ix2 a c (0 : Fin 2) = ix2 a' c' (0 : Fin 2) := congrFun e (0 : Fin 2)
    have e1 : ix2 a c (1 : Fin 2) = ix2 a' c' (1 : Fin 2) := congrFun e (1 : Fin 2)
    exact ⟨e0, e1⟩
  · rintro ⟨rfl, rfl⟩
    rfl

end Cert.RefSide
-- ==== Proof.RefFlag.lean ====
/-
  The flag of one row of one sample, read at the ideal values: the zero word plus the sum over the 64 entries of
  channel 0 of `max v (-v)`, compared with zero, the one bit read as a number — the specification's `rowZero`.
-/
import proofs.«163752_g34205119545578_cont_sun_m_983_21_alg».proof.Proof.RefTerm
import proofs.«163752_g34205119545578_cont_sun_m_983_21_alg».proof.Proof.Spec
import Idealize.ShloMosaic.Lib.IdealHost
import Idealize.ShloMosaic.Lib.Pipeline.Value

noncomputable section

open scoped BigOperators

namespace Cert.RefSide

open Cert.ReferenceIdeal Cert.ReferenceIdeal.Gen Idealize.ShloMosaic Idealize.ShloMosaic.ValueIdx

/-- Summing out the last axis of a [4096,50,64] array leaves a [4096,50] one; this form of the fact names the
    index that has coordinate `k` on the summed axis. -/
theorem reduces_d2 : S4096x50x64.Reduces [2] S4096x50 := by decide

/-- The index over sample `n`, row `h` with entry `k` inserted on the last axis is `(n, h, k)`. -/
theorem lift_d2 (n : Fin 4096) (h : Fin 50) (k : Fin 64) : reduces_d2.lift (ix2 n h) k = ix3 n h k := by
  funext a
  match a with
  | ⟨0, _⟩ => exact Fin.ext rfl
  | ⟨1, _⟩ => exact Fin.ext rfl
  | ⟨2, _⟩ => exact Fin.ext rfl

/-- Channel 0 cut out and its unit axis dropped, read at `(n, h, k)`, is the input at `(n, 0, h, k)`. -/
theorem chan0_apply (x : Cert.Spec.SX.Idx → EReal) (n : Fin 4096) (h : Fin 50) (k : Fin 64) :
    shapeCast S4096x50x64
        (extractStridedSlice S4096x1x50x64 ![0, 0, 0, 0] x slices_S4096x2x50x64_S4096x1x50x64_0_0_0_0)
        shapeCasts_S4096x1x50x64_S4096x50x64 (ix3 n h k)
      = x (ix4 n (0 : Fin 2) h k) := by
  refine (shapeCast_apply _ _ (ix3 n h k) (ix4 n (0 : Fin 1) h k) ?_).trans ?_
  · rw [Shape.rowMajor_val_four, Shape.rowMajor_val_three]
    show ((n.val * 1 + 0) * 50 + h.val) * 64 + k.val = (n.val * 50 + h.val) * 64 + k.val
    omega
  · refine extractStridedSlice_apply _ _ _ _ (ix4 n (0 : Fin 2) h k) (fun a => ?_)
    match a with
    | ⟨0, _⟩ => show n.val = 0 + n.val; omega
    | ⟨1, _⟩ => show 0 = 0 + 0; rfl
    | ⟨2, _⟩ => show h.val = 0 + h.val; omega
    | ⟨3, _⟩ => show k.val = 0 + k.val; omega

/-- The sum of a sample's row at the ideal values: the 64 absolute values of channel 0 added up (the initial word is
    zero). -/
theorem rowSum_apply (x : Cert.Spec.SX.Idx → EReal) (n : Fin 4096) (h : Fin 50) :
    rowSum (F := Ideal) x (ix2 n h)
      = ∑ k : Fin 64, max (x (ix4 n (0 : Fin 2) h k)) (-(x (ix4 n (0 : Fin 2) h k))) := by
  unfold rowSum
  rw [hostReduceAdd_apply, Ideal.hostReduceAdd_single _ reduces_d2, constant_apply, Ideal.ofBits_zero_f32, zero_add]
  show (∑ k : Fin 64, _) = _
  refine Finset.sum_congr rfl fun k _ => ?_
  show max (shapeCast S4096x50x64 _ _ (reduces_d2.lift (ix2 n h) k)) (-(shapeCast S4096x50x64 _ _ (reduces_d2.lift (ix2 n h) k))) = _
  rw [lift_d2, chan0_apply]

/-- The flag of row `h` of sample `n` is the specification's: 1 when that sum is zero, 0 otherwise. -/
theorem flag_apply (x : Cert.Spec.SX.Idx → EReal) (n : Fin 4096) (h : Fin 50) :
    flag (F := Ideal) x (ix2 n h) = Cert.Spec.rowZero x n h := by
  show (((Ideal.cmp .oeq (rowSum (F := Ideal) x (ix2 n h))
      (broadcastInDim S4096x50 ![] bcast_S_S4096x50 (constant (F := Ideal) S_ .f32 0x00000000#32) (ix2 n h))).toNat : ℝ) : EReal) = _
  rw [broadcastInDim_scalar_apply, constant_apply, Ideal.ofBits_zero_f32, rowSum_apply]
  unfold Cert.Spec.rowZero Ideal.cmp
  by_cases hz : (∑ k : Fin 64, max (x (ix4 n (0 : Fin 2) h k)) (-(x (ix4 n (0 : Fin 2) h k)))) = 0
  · rw [if_pos hz]
    simp [hz]
  · rw [if_neg hz]
    simp [hz]

end Cert.RefSide

end
-- ==== Proof.RefValue.lean ====
/-
  The reference's result term is the specification: at slot `b`, row `h` the table of zeros receives the flags of
  the updates that land there — row `h` of the samples with remainder `b` modulo 1024, the slot's four samples — and
  the counters are added to it.
-/
import proofs.«163752_g34205119545578_cont_sun_m_983_21_alg».proof.Proof.RefScatter
import proofs.«163752_g34205119545578_cont_sun_m_983_21_alg».proof.Proof.RefSum
import proofs.«163752_g34205119545578_cont_sun_m_983_21_alg».proof.Proof.RefFlag

noncomputable section

open scoped BigOperators

namespace Cert.RefSide

open Cert.ReferenceIdeal Cert.ReferenceIdeal.Gen Idealize.ShloMosaic Idealize.ShloMosaic.ValueIdx

/-- The update at sample `n`, row `h'` lands at slot `b`, row `h` exactly when `n mod 1024 = b` and `h' = h`. -/
theorem lands_iff (n : Fin 4096) (h' : Fin 50) (b : Fin 1024) (h : Fin 50) :
    dd.resultIdx? (ix2 n h') slotCol = some (ix2 b h) ↔ (n.val % 1024 = b.val ∧ h' = h) := by
  rw [resultIdx_slot, Option.some.injEq, ix2_eq_iff]
  constructor
  · rintro ⟨e1, e2⟩
    exact ⟨congrArg Fin.val e1, e2⟩
  · rintro ⟨e1, e2⟩
    exact ⟨Fin.ext e1, e2⟩

/-- The flags added at slot `b`, row `h` are those of row `h` of the slot's four samples. -/
theorem scatter_sum (x : Cert.Spec.SX.Idx → EReal) (b : Fin 1024) (h : Fin 50)
    [DecidablePred fun j : S4096x50.Idx => dd.resultIdx? j slotCol = some (ix2 b h)] :
    (∑ j ∈ Finset.univ.filter (fun j : S4096x50.Idx => dd.resultIdx? j slotCol = some (ix2 b h)), flag (F := Ideal) x j)
      = ∑ q : Fin 4, Cert.Spec.rowZero x (Cert.Spec.sample b q) h := by
  rw [Finset.sum_filter, sum_idx2, ← sum_slot (fun n => Cert.Spec.rowZero x n h) b]
  refine Finset.sum_congr rfl fun n _ => ?_
  simp only [lands_iff, flag_apply]
  by_cases hn : n.val % 1024 = b.val
  · simp [hn]
  · simp [hn]

/-- The reference's result term, at the ideal values, is the specification of the two arguments. -/
theorem refTerm_eq (x : Cert.Spec.SX.Idx → EReal) (seen : Cert.Spec.SB.Idx → EReal) :
    refTerm (F := Ideal) x seen = Cert.Spec.G x seen := by
  funext i
  obtain ⟨b, h, rfl⟩ : ∃ (b : Fin 1024) (h : Fin 50), i = ix2 b h := ⟨i 0, i 1, eq_ix2 i⟩
  rw [Cert.Spec.G_apply]
  unfold Cert.Spec.Gat
  show seen (ix2 b h)
      + (broadcastInDim S1024x50 ![] bcast_S_S1024x50 (constant (F := Ideal) S_ .f32 0x00000000#32) (ix2 b h)
        + ∑ j ∈ Finset.univ.filter (fun j : S4096x50.Idx => dd.resultIdx? j slotCol = some (ix2 b h)), flag (F := Ideal) x j)
      = _
  rw [broadcastInDim_scalar_apply, constant_apply, Ideal.ofBits_zero_f32, zero_add, scatter_sum]

end Cert.RefSide

end
-- ==== Proof.RefRun.lean ====
/-
  The reference's run against the specification: every weakly fair execution from a memory with zero counters ends
  with the result buffer at the specification of the two arguments' launch contents, the arguments unchanged — the run
  at the operations' composed term, with that term identified index by index.
-/
import proofs.«163752_g34205119545578_cont_sun_m_983_21_alg».proof.Proof.RefRun0
import proofs.«163752_g34205119545578_cont_sun_m_983_21_alg».proof.Proof.RefValue

noncomputable section

namespace Cert.RefSide

open Idealize.ShloMosaic Idealize.ShloMosaic.TcCoe Idealize.SL.Sem Idealize.ShloMosaic.StableHlo

/-- At the ideal values, on every device: the reference terminates with its result at the specification `G` of what
    the two argument buffers held at launch, and leaves both arguments as they were. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread _ _).loc Cert.ReferenceIdeal.main_v17)
          = Cert.Spec.G (m ((c.tc : Thread _ _).loc Cert.ReferenceIdeal.main_arg0))
              (m ((c.tc : Thread _ _).loc Cert.ReferenceIdeal.main_arg1))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)) :=
  (θ_run (Cert.ReferenceIdeal.defs (F := Ideal)) _ _).mono
    (fun _ h c => ⟨(h c).1.trans (refTerm_eq _ _), (h c).2⟩)
    (run0 (F := Ideal) m ρ)

end Cert.RefSide

end
-- ==== Proof.lean ====
/-
  The kernel and its reference compute the same counters.

  Both programs return `x` unchanged and `seen` plus, at slot `b` and row `h`, the number of samples `n ≡ b (mod 1024)`
  whose row `h` of channel 0 is all zeros (Proof/Spec.lean states this function, `G`). The reference takes the sum
  of absolute values over the row, compares it with zero, and scatter-adds the resulting ones and zeros by
  `n mod 1024`. The kernel lays channel 0 out two rows per 128 lanes, takes the two half-row sums by a product with a
  0/1 selector matrix, compares with zero, and accumulates the four samples of a slot over the four steps of the
  grid's second axis in a scratch buffer, writing the two halves out at the last step; the host interleaves them and
  adds `seen`. On the extended reals a product with a 0/1 matrix is the sum of the selected terms and addition is
  associative and commutative, so the two are the same function; no finiteness of the inputs is used.

  The frames: the kernel body is run case by case (reset / accumulate / accumulate and emit), the scratch
  accumulator carried from point to point in the region's invariant (Proof/BodyK for the program as printed,
  Proof/BodyI for its idealization); the reference's run is read off its operations (Proof/RefRun).
-/
import proofs.«163752_g34205119545578_cont_sun_m_983_21_alg».proof.Defs
import proofs.«163752_g34205119545578_cont_sun_m_983_21_alg».proof.Proof.Gen.Kernel
import proofs.«163752_g34205119545578_cont_sun_m_983_21_alg».proof.Proof.Gen.KernelIdeal
import proofs.«163752_g34205119545578_cont_sun_m_983_21_alg».proof.Proof.Gen.ReferenceIdeal
import proofs.«163752_g34205119545578_cont_sun_m_983_21_alg».proof.Proof.Gen.Pre_finite_inputs
import proofs.«163752_g34205119545578_cont_sun_m_983_21_alg».proof.Proof.BodyK.Data
import proofs.«163752_g34205119545578_cont_sun_m_983_21_alg».proof.Proof.Bridge.Value
import proofs.«163752_g34205119545578_cont_sun_m_983_21_alg».proof.Proof.RefRun
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments unchanged. -/
theorem frame_kernel : Cert.frame_Kernel := fun m ρ _ => Cert.Kernel.Hand.frame (F := Bits) m ρ

/-- So does its idealization. -/
theorem frame_ideal : Cert.frame_KernelIdeal := fun m ρ _ => Cert.KernelIdeal.Hand.frame (F := Ideal) m ρ

/-- So does the reference: its run with the result dropped. -/
theorem frame_reference : Cert.frame_ReferenceIdeal := fun m ρ _ =>
  (θ_run Cert.ReferenceIdeal.defs _ _).mono (fun _ h c => (h c).2) (Cert.RefSide.run m ρ)

/-- The idealization rewrote no operation of the kernel. -/
theorem preserves : Cert.preserves_Kernel_KernelIdeal := trivial

/-- From memories that agree on the arguments both programs end with the first argument unchanged and the
    counters at the specification's function of the arguments. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono (fun _ h c => ⟨(h c).2.1, (h c).1, (h c).2.1, (h c).2.2⟩)
      (Cert.KernelIdeal.Bridge.run m ρ)
  · refine (θ_run (Cert.ReferenceIdeal.defs (F := Ideal)) _ _).mono (fun _ h c => ⟨(h c).2.1.trans (hagree c).1, ?_, (h c).2.1, (h c).2.2⟩)
      (Cert.RefSide.run m' ρ')
    rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
